-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x5 : Shape := ⟨2, ![32768, 5]⟩
abbrev S1x32768x1024 : Shape := ⟨3, ![1, 32768, 1024]⟩
abbrev S4096x1 : Shape := ⟨2, ![4096, 1]⟩
abbrev S4096x1024 : Shape := ⟨2, ![4096, 1024]⟩
abbrev S4096 : Shape := ⟨1, ![4096]⟩
abbrev S2048x4 : Shape := ⟨2, ![2048, 4]⟩
abbrev S2048 : Shape := ⟨1, ![2048]⟩
abbrev S2048x2048 : Shape := ⟨2, ![2048, 2048]⟩
abbrev S1x1024 : Shape := ⟨2, ![1, 1024]⟩
abbrev S1 : Shape := ⟨1, ![1]⟩
abbrev S_ : Shape := ⟨0, ![]⟩

class Facts : Prop where
  bcast_S_S32768x5 : S_.BroadcastsInDim S32768x5 (![] : Fin 0 → Fin S32768x5.rank)
  reducesTo_S32768x5_S_d0_1 : S32768x5.ReducesTo [0, 1] S_
  h_S_ : 0 < S_.numel
  bcast_S_S1x32768x1024 : S_.BroadcastsInDim S1x32768x1024 (![] : Fin 0 → Fin S1x32768x1024.rank)
  reducesTo_S1x32768x1024_S_d0_1_2 : S1x32768x1024.ReducesTo [0, 1, 2] S_
  bcast_S_S4096x1 : S_.BroadcastsInDim S4096x1 (![] : Fin 0 → Fin S4096x1.rank)
  reducesTo_S4096x1_S_d0_1 : S4096x1.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S2048x4 : S_.BroadcastsInDim S2048x4 (![] : Fin 0 → Fin S2048x4.rank)
  reducesTo_S2048x4_S_d0_1 : S2048x4.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x1024 .f32) (main_arg12 : FVec F S1 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S1x1024 .f32 := Host.absf main_arg11
  let main_cst_20 : FVec F S_ .f32 := constant S_ .f32 0x7F800000#32
  let main_v55 : FVec F S1x1024 .f32 := broadcastInDim S1x1024 ![] bcast_S_S1x1024 main_cst_20
  let main_v56 : IVec S1x1024 1 := cmpf .olt main_v54 main_v55
  let main_c_21 : IVec S_ 1 := constantI S_ 1 1#1
  let main_v57 : IVec S_ 1 := (fun x v => Host.reduce IntOp.andi x v reducesTo_S1x1024_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S2048x4 .f32) (main_arg8 : FVec F S2048 .f32) (main_arg9 : FVec F S2048x2048 .f32) (main_arg10 : FVec F S2048 .f32) (main_arg11 : FVec F S1x1024 .f32) (main_arg12 : FVec F S1 .f32) (main_v33 : IVec S_ 1) : IVec S_ 1 :=
  let main_v34 : FVec F S2048x4 .f32 := Host.absf main_arg7
  let main_cst_12 : FVec F S_ .f32 := constant S_ .f32 0x7F800000#32
  let main_v35 : FVec F S2048x4 .f32 := broadcastInDim S2048x4 ![] bcast_S_S2048x4 main_cst_12
  let main_v36 : IVec S2048x4 1 := cmpf .olt main_v34 main_v35
  let main_c_13 : IVec S_ 1 := constantI S_ 1 1#1
  let main_v37 : IVec S_ 1 := (fun x v => Host.reduce IntOp.andi x v reducesTo_S2048x4_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_v48 main_v49 main_v50

def fn_part1 {F : FTy → Type} [FloatOps F] (main_arg4 : FVec F S4096x1024 .f32) (main_arg5 : FVec F S4096 .f32) (main_arg6 : FVec F S4096 .f32) (main_arg7 : FVec F S2048x4 .f32) (main_arg8 : FVec F S2048 .f32) (main_arg9 : FVec F S2048x2048 .f32) (main_arg10 : FVec F S2048 .f32) (main_arg11 : FVec F S1x1024 .f32) (main_arg12 : FVec F S1 .f32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32768x5 .f32) (main_arg1 : FVec F S1x32768x1024 .f32) (main_arg2 : FVec F S1x32768x1024 .f32) (main_arg3 : FVec F S4096x1 .f32) (main_arg4 : FVec F S4096x1024 .f32) (main_arg5 : FVec F S4096 .f32) (main_arg6 : FVec F S4096 .f32) (main_arg7 : FVec F S2048x4 .f32) (main_arg8 : FVec F S2048 .f32) (main_arg9 : FVec F S2048x2048 .f32) (main_arg10 : FVec F S2048 .f32) (main_arg11 : FVec F S1x1024 .f32) (main_arg12 : FVec F S1 .f32) : IVec S_ 1 :=
  let main_v0 : FVec F S32768x5 .f32 := Host.absf main_arg0
  let main_cst : FVec F S_ .f32 := constant S_ .f32 0x7F800000#32
  let main_v1 : FVec F S32768x5 .f32 := broadcastInDim S32768x5 ![] bcast_S_S32768x5 main_cst
  let main_v2 : IVec S32768x5 1 := cmpf .olt main_v0 main_v1
  let main_c : IVec S_ 1 := constantI S_ 1 1#1
  let main_v3 : IVec S_ 1 := (fun x v => Host.reduce IntOp.andi x v reducesTo_S32768x5_S_d0_1 h_S_) main_v2 main_c
  let main_v4 : FVec F S1x32768x1024 .f32 := Host.absf main_arg1
  let main_cst_0 : FVec F S_ .f32 := constant S_ .f32 0x7F800000#32
  let main_v5 : FVec F S1x32768x1024 .f32 := broadcastInDim S1x32768x1024 ![] bcast_S_S1x32768x1024 main_cst_0
  let main_v6 : IVec S1x32768x1024 1 := cmpf .olt main_v4 main_v5
  let main_c_1 : IVec S_ 1 := constantI S_ 1 1#1
  let main_v7 : IVec S_ 1 := (fun x v => Host.reduce IntOp.andi x v reducesTo_S1x32768x1024_S_d0_1_2 h_S_) main_v6 main_c_1
  let main_v8 : IVec S_ 1 := andi main_v3 main_v7
  let main_v9 : FVec F S1x32768x1024 .f32 := Host.absf main_arg2
  let main_cst_2 : FVec F S_ .f32 := constant S_ .f32 0x7F800000#32
  let main_v10 : FVec F S1x32768x1024 .f32 := broadcastInDim S1x32768x1024 ![] bcast_S_S1x32768x1024 main_cst_2
  let main_v11 : IVec S1x32768x1024 1 := cmpf .olt main_v9 main_v10
  let main_c_3 : IVec S_ 1 := constantI S_ 1 1#1
  let main_v12 : IVec S_ 1 := (fun x v => Host.reduce IntOp.andi x v reducesTo_S1x32768x1024_S_d0_1_2 h_S_) main_v11 main_c_3
  let main_v13 : IVec S_ 1 := andi main_v8 main_v12
  let main_v14 : FVec F S4096x1 .f32 := Host.absf main_arg3
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg4 main_arg5 main_arg6 main_arg7 main_arg8 main_arg9 main_arg10 main_arg11 main_arg12 main_v13 main_v16
-- ==== Kernel.lean ====
abbrev S32768x5 : Shape := ⟨2, ![32768, 5]⟩
abbrev S1x32768x1024 : Shape := ⟨3, ![1, 32768, 1024]⟩
abbrev S4096x1 : Shape := ⟨2, ![4096, 1]⟩
abbrev S4096x1024 : Shape := ⟨2, ![4096, 1024]⟩
abbrev S4096 : Shape := ⟨1, ![4096]⟩
abbrev S2048x4 : Shape := ⟨2, ![2048, 4]⟩
abbrev S2048 : Shape := ⟨1, ![2048]⟩
abbrev S2048x2048 : Shape := ⟨2, ![2048, 2048]⟩
abbrev S1x1024 : Shape := ⟨2, ![1, 1024]⟩
abbrev S1 : Shape := ⟨1, ![1]⟩
abbrev S32768x1024 : Shape := ⟨2, ![32768, 1024]⟩
abbrev S1x4096 : Shape := ⟨2, ![1, 4096]⟩
abbrev S1024x4096 : Shape := ⟨2, ![1024, 4096]⟩
abbrev S4x2048 : Shape := ⟨2, ![4, 2048]⟩
abbrev S1x2048 : Shape := ⟨2, ![1, 2048]⟩
abbrev S1x1 : Shape := ⟨2, ![1, 1]⟩
abbrev S32768x1 : Shape := ⟨2, ![32768, 1]⟩
abbrev S256x5 : Shape := ⟨2, ![256, 5]⟩
abbrev S256x1024 : Shape := ⟨2, ![256, 1024]⟩
abbrev S256x1 : Shape := ⟨2, ![256, 1]⟩
abbrev S256x4 : Shape := ⟨2, ![256, 4]⟩
abbrev S256x4096 : Shape := ⟨2, ![256, 4096]⟩
abbrev S256x2048 : Shape := ⟨2, ![256, 2048]⟩
abbrev S256 : Shape := ⟨1, ![256]⟩

abbrev nBuf : Space → Nat
  | .hbm => 28
  | .vmem => 17
  | .smem => 0
  | _ => 0

abbrev bufTy : (tb : Table) → Fin (tcTables nBuf tb) → BufTy
  | .hbm, ⟨0, _⟩ => ⟨S32768x5, .f32⟩
  | .hbm, ⟨1, _⟩ => ⟨S1x32768x1024, .f32⟩
  | .hbm, ⟨2, _⟩ => ⟨S1x32768x1024, .f32⟩
  | .hbm, ⟨3, _⟩ => ⟨S4096x1, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S2048x4, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S1x1024, .f32⟩
  | .hbm, ⟨12, _⟩ => ⟨S1, .f32⟩
  | .hbm, ⟨13, _⟩ => ⟨S32768x1024, .f32⟩
  | .hbm, ⟨14, _⟩ => ⟨S32768x1024, .f32⟩
  | .hbm, ⟨15, _⟩ => ⟨S4096, .f32⟩
  | .hbm, ⟨16, _⟩ => ⟨S1x4096, .f32⟩
  | .hbm, ⟨17, _⟩ => ⟨S4096, .f32⟩
  | .hbm, ⟨18, _⟩ => ⟨S1x4096, .f32⟩
  | .hbm, ⟨19, _⟩ => ⟨S1024x4096, .f32⟩
  | .hbm, ⟨20, _⟩ => ⟨S1024x4096, .bf16⟩
  | .hbm, ⟨21, _⟩ => ⟨S4x2048, .f32⟩
  | .hbm, ⟨22, _⟩ => ⟨S1x2048, .f32⟩
  | .hbm, ⟨23, _⟩ => ⟨S2048x2048, .f32⟩
  | .hbm, ⟨24, _⟩ => ⟨S2048x2048, .bf16⟩
  | .hbm, ⟨25, _⟩ => ⟨S1x2048, .f32⟩
  | .hbm, ⟨26, _⟩ => ⟨S1x1, .f32⟩
  | .hbm, ⟨27, _⟩ => ⟨S32768x1, .f32⟩
  | .local _ .vmem, ⟨0, _⟩ => ⟨S256x5, .f32⟩
  | .local _ .vmem, ⟨1, _⟩ => ⟨S256x5, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x4096, .f32⟩
  | .local _ .vmem, ⟨7, _⟩ => ⟨S1024x4096, .bf16⟩
  | .local _ .vmem, ⟨8, _⟩ => ⟨S1x4096, .f32⟩
  | .local _ .vmem, ⟨9, _⟩ => ⟨S4x2048, .f32⟩
  | .local _ .vmem, ⟨10, _⟩ => ⟨S1x2048, .f32⟩
  | .local _ .vmem, ⟨11, _⟩ => ⟨S2048x2048, .bf16⟩
  | .local _ .vmem, ⟨12, _⟩ => ⟨S1x2048, .f32⟩
  | .local _ .vmem, ⟨13, _⟩ => ⟨S1x1024, .f32⟩
  | .local _ .vmem, ⟨14, _⟩ => ⟨S1x1, .f32⟩
  | .local _ .vmem, ⟨15, _⟩ => ⟨S256x1, .f32⟩
  | .local _ .vmem, ⟨16, _⟩ => ⟨S256x1, .f32⟩
  | _, _ => ⟨S32768x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S1x32768x1024_S32768x1024 : S1x32768x1024.ShapeCasts S32768x1024
  shapeCasts_S4096x1_S4096 : S4096x1.ShapeCasts S4096
  shapeCasts_S4096_S1x4096 : S4096.ShapeCasts S1x4096
  transposes_S4096x1024_S1024x4096_1_0 : S4096x1024.Transposes [1, 0] S1024x4096
  bitsLt_bf16_f32 : FTy.bits .bf16 < FTy.bits .f32
  transposes_S2048x4_S4x2048_1_0 : S2048x4.Transposes [1, 0] S4x2048
  shapeCasts_S2048_S1x2048 : S2048.ShapeCasts S1x2048
  transposes_S2048x2048_S2048x2048_1_0 : S2048x2048.Transposes [1, 0] S2048x2048
  shapeCasts_S1_S1x1 : S1.ShapeCasts S1x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x5_S256x1_0_0 : ∀ a, (![0, 0] : Fin 2 → Nat) a + S256x1.size a ≤ S256x5.size a
  h_S256x1 : 0 < S256x1.numel
  inb_S256x5_S256x4_0_1 : ∀ a, (![0, 1] : Fin 2 → Nat) a + S256x4.size a ≤ S256x5.size a
  h_S256x4 : 0 < S256x4.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  slices_S256x4_o0_0_S256x1 : S256x4.Slices ![0, 0] S256x1
  slices_S4x2048_o0_0_S1x2048 : S4x2048.Slices ![0, 0] S1x2048
  broadcasts_S256x1_S256x2048 : S256x1.Broadcasts S256x2048
  broadcasts_S1x2048_S256x2048 : S1x2048.Broadcasts S256x2048
  slices_S256x4_o0_1_S256x1 : S256x4.Slices ![0, 1] S256x1
  slices_S4x2048_o1_0_S1x2048 : S4x2048.Slices ![1, 0] S1x2048
  slices_S256x4_o0_2_S256x1 : S256x4.Slices ![0, 2] S256x1
  slices_S4x2048_o2_0_S1x2048 : S4x2048.Slices ![2, 0] S1x2048
  slices_S256x4_o0_3_S256x1 : S256x4.Slices ![0, 3] S256x1
  slices_S4x2048_o3_0_S1x2048 : S4x2048.Slices ![3, 0] S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  slices_S256x2048_o0_0_S256x1024 : S256x2048.Slices ![0, 0] S256x1024
  slices_S256x2048_o0_1024_S256x1024 : S256x2048.Slices ![0, 1024] S256x1024
  inb_S1x1024_S1x1024_0_0 : ∀ a, (![0, 0] : Fin 2 → Nat) a + S1x1024.size a ≤ S1x1024.size a
  h_S1x1024 : 0 < S1x1024.numel
  broadcasts_S1x1024_S256x1024 : S1x1024.Broadcasts S256x1024
  reduces_S256x1024_S256 : S256x1024.Reduces [1] S256
  shapeCasts_S256_S256x1 : S256.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  dot_S256x1024_S1024x4096_S256x4096_1_0_0_1_n_n_wf : DotDims.WF S256x1024 S1024x4096 S256x4096 [1] [0] [0] [1] [] []
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x5.size a ≤ S32768x5.size a
  hwx0_0 : ∀ i : grid0.Coords, EltTy.bits .f32 = 32 ∨ (Rect.block (s := S32768x5) S256x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S32768x1024.size a
  hwx0_1 : ∀ i : grid0.Coords, EltTy.bits .f32 = 32 ∨ (Rect.block (s := S32768x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S32768x1024.size a
  hwx0_2 : ∀ i : grid0.Coords, EltTy.bits .f32 = 32 ∨ (Rect.block (s := S32768x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x2048.size a ≤ S4x2048.size a
  hwx0_6 : ∀ i : grid0.Coords, EltTy.bits .f32 = 32 ∨ (Rect.block (s := S4x2048) S4x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x2048.size a ≤ S2048x2048.size a
  hwx0_8 : ∀ i : grid0.Coords, EltTy.bits .bf16 = 32 ∨ (Rect.block (s := S2048x2048) S2048x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1.size a ≤ S32768x1.size a
  hwx0_12 : ∀ i : grid0.Coords, EltTy.bits .f32 = 32 ∨ (Rect.block (s := S32768x1) S256x1.size (cc0_transform_12 i) (hinb0_12 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S4x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S2048x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S256x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32768x5 : Shape := ⟨2, ![32768, 5]⟩
abbrev S1x32768x1024 : Shape := ⟨3, ![1, 32768, 1024]⟩
abbrev S4096x1 : Shape := ⟨2, ![4096, 1]⟩
abbrev S4096x1024 : Shape := ⟨2, ![4096, 1024]⟩
abbrev S4096 : Shape := ⟨1, ![4096]⟩
abbrev S2048x4 : Shape := ⟨2, ![2048, 4]⟩
abbrev S2048 : Shape := ⟨1, ![2048]⟩
abbrev S2048x2048 : Shape := ⟨2, ![2048, 2048]⟩
abbrev S1x1024 : Shape := ⟨2, ![1, 1024]⟩
abbrev S1 : Shape := ⟨1, ![1]⟩
abbrev S32768x1 : Shape := ⟨2, ![32768, 1]⟩
abbrev S32768x4 : Shape := ⟨2, ![32768, 4]⟩
abbrev S32768x1024 : Shape := ⟨2, ![32768, 1024]⟩
abbrev S1x4096 : Shape := ⟨2, ![1, 4096]⟩
abbrev S32768x4096 : Shape := ⟨2, ![32768, 4096]⟩
abbrev S1024x4096 : Shape := ⟨2, ![1024, 4096]⟩
abbrev S_ : Shape := ⟨0, ![]⟩
abbrev S4x2048 : Shape := ⟨2, ![4, 2048]⟩
abbrev S32768x2048 : Shape := ⟨2, ![32768, 2048]⟩
abbrev S1x2048 : Shape := ⟨2, ![1, 2048]⟩
abbrev S1024x1 : Shape := ⟨2, ![1024, 1]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S32768x5, .f32⟩
  | .hbm, ⟨1, _⟩ => ⟨S1x32768x1024, .f32⟩
  | .hbm, ⟨2, _⟩ => ⟨S1x32768x1024, .f32⟩
  | .hbm, ⟨3, _⟩ => ⟨S4096x1, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S2048x4, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S1x1024, .f32⟩
  | .hbm, ⟨12, _⟩ => ⟨S1, .f32⟩
  | .hbm, ⟨13, _⟩ => ⟨S32768x1, .f32⟩
  | .hbm, ⟨14, _⟩ => ⟨S32768x4, .f32⟩
  | .hbm, ⟨15, _⟩ => ⟨S32768x1024, .f32⟩
  | .hbm, ⟨16, _⟩ => ⟨S32768x1024, .f32⟩
  | .hbm, ⟨17, _⟩ => ⟨S1x4096, .f32⟩
  | .hbm, ⟨18, _⟩ => ⟨S32768x4096, .f32⟩
  | .hbm, ⟨19, _⟩ => ⟨S1x4096, .f32⟩
  | .hbm, ⟨20, _⟩ => ⟨S32768x4096, .f32⟩
  | .hbm, ⟨21, _⟩ => ⟨S32768x4096, .f32⟩
  | .hbm, ⟨22, _⟩ => ⟨S1024x4096, .f32⟩
  | .hbm, ⟨23, _⟩ => ⟨S32768x4096, .f32⟩
  | .hbm, ⟨24, _⟩ => ⟨S32768x4096, .f32⟩
  | .hbm, ⟨25, _⟩ => ⟨S1x4096, .f32⟩
  | .hbm, ⟨26, _⟩ => ⟨S32768x4096, .f32⟩
  | .hbm, ⟨27, _⟩ => ⟨S32768x4096, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S_, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S4x2048, .f32⟩
  | .hbm, ⟨63, _⟩ => ⟨S32768x2048, .f32⟩
  | .hbm, ⟨64, _⟩ => ⟨S1x2048, .f32⟩
  | .hbm, ⟨65, _⟩ => ⟨S32768x2048, .f32⟩
  | .hbm, ⟨66, _⟩ => ⟨S32768x2048, .f32⟩
  | .hbm, ⟨67, _⟩ => ⟨S_, .f32⟩
  | .hbm, ⟨68, _⟩ => ⟨S32768x2048, .f32⟩
  | .hbm, ⟨69, _⟩ => ⟨S32768x2048, .f32⟩
  | .hbm, ⟨70, _⟩ => ⟨S2048x2048, .f32⟩
  | .hbm, ⟨71, _⟩ => ⟨S32768x2048, .f32⟩
  | .hbm, ⟨72, _⟩ => ⟨S1x2048, .f32⟩
  | .hbm, ⟨73, _⟩ => ⟨S32768x2048, .f32⟩
  | .hbm, ⟨74, _⟩ => ⟨S32768x2048, .f32⟩
  | .hbm, ⟨75, _⟩ => ⟨S32768x1024, .f32⟩
  | .hbm, ⟨76, _⟩ => ⟨S32768x1024, .f32⟩
  | .hbm, ⟨77, _⟩ => ⟨S32768x1024, .f32⟩
  | .hbm, ⟨78, _⟩ => ⟨S32768x1024, .f32⟩
  | .hbm, ⟨79, _⟩ => ⟨S1024x1, .f32⟩
  | .hbm, ⟨80, _⟩ => ⟨S32768x1, .f32⟩
  | .hbm, ⟨81, _⟩ => ⟨S1x1, .f32⟩
  | .hbm, ⟨82, _⟩ => ⟨S32768x1, .f32⟩
  | .hbm, ⟨83, _⟩ => ⟨S32768x1, .f32⟩
  | _, _ => ⟨S32768x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  slices_S32768x5_S32768x1_0_0 : S32768x5.Slices ![0, 0] S32768x1
  slices_S32768x5_S32768x4_0_1 : S32768x5.Slices ![0, 1] S32768x4
  shapeCasts_S1x32768x1024_S32768x1024 : S1x32768x1024.ShapeCasts S32768x1024
  transposes_S4096x1_S1x4096_1_0 : S4096x1.Transposes [1, 0] S1x4096
  bcast_S4096_S1x4096_1 : S4096.BroadcastsInDim S1x4096 (![1] : Fin 1 → Fin S1x4096.rank)
  bcast_S1x4096_S32768x4096_0_1 : S1x4096.BroadcastsInDim S32768x4096 (![0, 1] : Fin 2 → Fin S32768x4096.rank)
  transposes_S4096x1024_S1024x4096_1_0 : S4096x1024.Transposes [1, 0] S1024x4096
  slices_S32768x4096_S32768x1024_0_0 : S32768x4096.Slices ![0, 0] S32768x1024
  slices_S32768x4096_S32768x1024_0_1024 : S32768x4096.Slices ![0, 1024] S32768x1024
  slices_S32768x4096_S32768x1024_0_2048 : S32768x4096.Slices ![0, 2048] S32768x1024
  slices_S32768x4096_S32768x1024_0_3072 : S32768x4096.Slices ![0, 3072] S32768x1024
  bcast_S_S32768x1024 : S_.BroadcastsInDim S32768x1024 (![] : Fin 0 → Fin S32768x1024.rank)
  transposes_S2048x4_S4x2048_1_0 : S2048x4.Transposes [1, 0] S4x2048
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  transposes_S2048x2048_S2048x2048_1_0 : S2048x2048.Transposes [1, 0] S2048x2048
  slices_S32768x2048_S32768x1024_0_0 : S32768x2048.Slices ![0, 0] S32768x1024
  slices_S32768x2048_S32768x1024_0_1024 : S32768x2048.Slices ![0, 1024] S32768x1024
  transposes_S1x1024_S1024x1_1_0 : S1x1024.Transposes [1, 0] S1024x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  dot_S32768x1_S1x4096_S32768x4096_1_0_0_1_n_n_wf : DotDims.WF S32768x1 S1x4096 S32768x4096 [1] [0] [0] [1] [] []
  dot_S32768x1024_S1024x4096_S32768x4096_1_0_0_1_n_n_wf : DotDims.WF S32768x1024 S1024x4096 S32768x4096 [1] [0] [0] [1] [] []
  dot_S32768x4_S4x2048_S32768x2048_1_0_0_1_n_n_wf : DotDims.WF S32768x4 S4x2048 S32768x2048 [1] [0] [0] [1] [] []
  dot_S32768x2048_S2048x2048_S32768x2048_1_0_0_1_n_n_wf : DotDims.WF S32768x2048 S2048x2048 S32768x2048 [1] [0] [0] [1] [] []
  dot_S32768x1024_S1024x1_S32768x1_1_0_0_1_n_n_wf : DotDims.WF S32768x1024 S1024x1 S32768x1 [1] [0] [0] [1] [] []

variable [Facts₀]

def dot_S32768x1_S1x4096_S32768x4096_1_0_0_1_n_n : DotDims S32768x1 S1x4096 S32768x4096 where
  lhsContracting := [1]
  rhsContracting := [0]
  lhsNonContracting := [0]
  rhsNonContracting := [1]
  lhsBatch := []
  rhsBatch := []
  wf := dot_S32768x1_S1x4096_S32768x4096_1_0_0_1_n_n_wf
def dot_S32768x1024_S1024x4096_S32768x4096_1_0_0_1_n_n : DotDims S32768x1024 S1024x4096 S32768x4096 where
  lhsContracting := [1]
  rhsContracting := [0]
  lhsNonContracting := [0]
  rhsNonContracting := [1]
  lhsBatch := []
  rhsBatch := []
  wf := dot_S32768x1024_S1024x4096_S32768x4096_1_0_0_1_n_n_wf
def dot_S32768x4_S4x2048_S32768x2048_1_0_0_1_n_n : DotDims S32768x4 S4x2048 S32768x2048 where
  lhsContracting := [1]
  rhsContracting := [0]
  lhsNonContracting := [0]
  rhsNonContracting := [1]
  lhsBatch := []
  rhsBatch := []
  wf := dot_S32768x4_S4x2048_S32768x2048_1_0_0_1_n_n_wf
def dot_S32768x2048_S2048x2048_S32768x2048_1_0_0_1_n_n : DotDims S32768x2048 S2048x2048 S32768x2048 where
  lhsContracting := [1]
  rhsContracting := [0]
  lhsNonContracting := [0]
  rhsNonContracting := [1]
  lhsBatch := []
  rhsBatch := []
  wf := dot_S32768x2048_S2048x2048_S32768x2048_1_0_0_1_n_n_wf
def dot_S32768x1024_S1024x1_S32768x1_1_0_0_1_n_n : DotDims S32768x1024 S1024x1 S32768x1 where
  lhsContracting := [1]
  rhsContracting := [0]
  lhsNonContracting := [0]
  rhsNonContracting := [1]
  lhsBatch := []
  rhsBatch := []
  wf := dot_S32768x1024_S1024x1_S32768x1_1_0_0_1_n_n_wf

class Facts : Prop extends Facts₀ where

variable [Facts]
-- ==== Proof.CellSpec.lean ====
/-
  One step of an LSTM cell whose new hidden state is modulated by a FiLM network (scale and shift computed from a
  selector) and read out by a linear head — for ONE batch row, as a function over the extended reals, and then
  for the whole batch as one function of the thirteen argument arrays.

  For a row with signal `s`, selector `sel`, previous hidden state `h` and previous cell state `c`:
    pre-activation of gate column `j`   g j = Σ_k h k · W_hh j k + s · W_ih j + (b_ih j + b_hh j)
    the four gates read columns `q · 1024 + n` of `g` (input, forget, cell, output for `q = 0, 1, 2, 3`)
    new hidden state                    hn n = σ(g₃ n) · tanh (σ(g₁ n) · c n + σ(g₀ n) · tanh (g₂ n))
    FiLM hidden layer                   u k = max (Σ_{a<4} sel a · W₁ k a + b₁ k) 0
    FiLM output                         f n = Σ_k u k · W₂ n k + b₂ n        (scale: columns n, shift: columns 1024 + n)
    result                              Σ_n (f n · hn n + f (1024 + n)) · w n + b
  The only algebra used anywhere below is that addition on the extended reals is commutative and associative.
-/
import Idealize.ShloMosaic.PureOps.Ideal
import Idealize.ShloMosaic.PureOps.Ideal.Laws
import Idealize.ShloMosaic.Lib.ValueIdx

noncomputable section

namespace Cert.Cell

open Idealize.ShloMosaic Idealize.ShloMosaic.ValueIdx

/-- Column `n` of gate block `q` among the 4096 gate columns. -/
def gcol (q : Fin 4) (n : Fin 1024) : Fin 4096 := ⟨q.val * 1024 + n.val, by have := q.isLt; have := n.isLt; omega⟩

/-- Column `n` of the FiLM output: the scale half. -/
def lo (n : Fin 1024) : Fin 2048 := ⟨n.val, by have := n.isLt; omega⟩

/-- Column `1024 + n` of the FiLM output: the shift half. -/
def hi (n : Fin 1024) : Fin 2048 := ⟨1024 + n.val, by have := n.isLt; omega⟩

/-- Selector entry `a` sits in column `1 + a` of a row of the input (column 0 is the signal). -/
def selc (a : Fin 4) : Fin 5 := ⟨1 + a.val, by have := a.isLt; omega⟩

/-- The pre-activation of gate column `j`: recurrent product, then the input term, then the bias (the two biases' sum). -/
def pre (h : Fin 1024 → EReal) (s : EReal) (whh : Fin 4096 → Fin 1024 → EReal) (wih bsum : Fin 4096 → EReal)
    (j : Fin 4096) : EReal :=
  ((∑ k : Fin 1024, h k * whh j k) + s * wih j) + bsum j

/-- The same number with the terms in the order input term, first bias, recurrent product, second bias. -/
theorem pre_eq (h : Fin 1024 → EReal) (s : EReal) (whh : Fin 4096 → Fin 1024 → EReal) (wih bih bhh : Fin 4096 → EReal)
    (j : Fin 4096) :
    ((s * wih j + bih j) + ∑ k : Fin 1024, h k * whh j k) + bhh j = pre h s whh wih (fun j => bih j + bhh j) j := by
  unfold pre
  beta_reduce
  abel

/-- The new hidden state at column `n`, from the gate pre-activations `g` and the previous cell state. -/
def hidden (g : Fin 4096 → EReal) (c : Fin 1024 → EReal) (n : Fin 1024) : EReal :=
  Ideal.logistic (g (gcol 3 n))
    * Ideal.tanh (Ideal.logistic (g (gcol 1 n)) * c n + Ideal.logistic (g (gcol 0 n)) * Ideal.tanh (g (gcol 2 n)))

/-- The FiLM hidden layer at unit `k`: the four selector terms added left to right, the bias, then the positive part. -/
def film1 (sel : Fin 4 → EReal) (w1 : Fin 2048 → Fin 4 → EReal) (b1 : Fin 2048 → EReal) (k : Fin 2048) : EReal :=
  max ((((sel 0 * w1 k 0 + sel 1 * w1 k 1) + sel 2 * w1 k 2) + sel 3 * w1 k 3) + b1 k) (Ideal.ofBits .f32 0x00000000#32)

/-- The FiLM output at column `n`. -/
def film2 (u : Fin 2048 → EReal) (w2 : Fin 2048 → Fin 2048 → EReal) (b2 : Fin 2048 → EReal) (n : Fin 2048) : EReal :=
  (∑ k : Fin 2048, u k * w2 n k) + b2 n

/-- The head: the modulated hidden state against the head's weights, plus its bias. -/
def head (f : Fin 2048 → EReal) (hn : Fin 1024 → EReal) (w : Fin 1024 → EReal) (b : EReal) : EReal :=
  (∑ n : Fin 1024, (f (lo n) * hn n + f (hi n)) * w n) + b

/-- One row of the result. -/
def row (s : EReal) (sel : Fin 4 → EReal) (h c : Fin 1024 → EReal)
    (wih : Fin 4096 → EReal) (whh : Fin 4096 → Fin 1024 → EReal) (bsum : Fin 4096 → EReal)
    (w1 : Fin 2048 → Fin 4 → EReal) (b1 : Fin 2048 → EReal) (w2 : Fin 2048 → Fin 2048 → EReal) (b2 : Fin 2048 → EReal)
    (w : Fin 1024 → EReal) (b : EReal) : EReal :=
  head (film2 (film1 sel w1 b1) w2 b2) (hidden (pre h s whh wih bsum) c) w b

/-- Row `r` of the result as a function of the argument arrays: `row` of row `r` of the input, of the two states, and of
    the weights as given (gate-major, as the reference holds them). -/
def Grow (x : (⟨2, ![32768, 5]⟩ : Shape).Idx → EReal) (h0 c0 : (⟨3, ![1, 32768, 1024]⟩ : Shape).Idx → EReal)
    (wih : (⟨2, ![4096, 1]⟩ : Shape).Idx → EReal) (whh : (⟨2, ![4096, 1024]⟩ : Shape).Idx → EReal)
    (bih bhh : (⟨1, ![4096]⟩ : Shape).Idx → EReal)
    (w1 : (⟨2, ![2048, 4]⟩ : Shape).Idx → EReal) (b1 : (⟨1, ![2048]⟩ : Shape).Idx → EReal)
    (w2 : (⟨2, ![2048, 2048]⟩ : Shape).Idx → EReal) (b2 : (⟨1, ![2048]⟩ : Shape).Idx → EReal)
    (fcw : (⟨2, ![1, 1024]⟩ : Shape).Idx → EReal) (fcb : (⟨1, ![1]⟩ : Shape).Idx → EReal) (r : Fin 32768) : EReal :=
  row (x (ix2 r 0)) (fun a => x (ix2 r (selc a))) (fun k => h0 (ix3 0 r k)) (fun k => c0 (ix3 0 r k))
    (fun j => wih (ix2 j 0)) (fun j k => whh (ix2 j k)) (fun j => bih (ix1 j) + bhh (ix1 j))
    (fun n a => w1 (ix2 n a)) (fun n => b1 (ix1 n)) (fun n k => w2 (ix2 n k)) (fun n => b2 (ix1 n))
    (fun n => fcw (ix2 0 n)) (fcb (ix1 0))

/-- The whole result, [32768, 1], as one function of the argument arrays. -/
def G (x : (⟨2, ![32768, 5]⟩ : Shape).Idx → EReal) (h0 c0 : (⟨3, ![1, 32768, 1024]⟩ : Shape).Idx → EReal)
    (wih : (⟨2, ![4096, 1]⟩ : Shape).Idx → EReal) (whh : (⟨2, ![4096, 1024]⟩ : Shape).Idx → EReal)
    (bih bhh : (⟨1, ![4096]⟩ : Shape).Idx → EReal)
    (w1 : (⟨2, ![2048, 4]⟩ : Shape).Idx → EReal) (b1 : (⟨1, ![2048]⟩ : Shape).Idx → EReal)
    (w2 : (⟨2, ![2048, 2048]⟩ : Shape).Idx → EReal) (b2 : (⟨1, ![2048]⟩ : Shape).Idx → EReal)
    (fcw : (⟨2, ![1, 1024]⟩ : Shape).Idx → EReal) (fcb : (⟨1, ![1]⟩ : Shape).Idx → EReal) :
    (⟨2, ![32768, 1]⟩ : Shape).Idx → EReal := fun i =>
  Grow x h0 c0 wih whh bih bhh w1 b1 w2 b2 fcw fcb (i 0)

/-- The same row from the arrays as the kernel's launch is handed them: the two states with their leading unit axis
    dropped, the input-to-gate weights as one row, the three weight matrices transposed, the two gate biases added into
    one row, the other biases as rows: `row` of row `r` of the first three and of the rest whole. -/
def GKrow (x : (⟨2, ![32768, 5]⟩ : Shape).Idx → EReal) (h c : (⟨2, ![32768, 1024]⟩ : Shape).Idx → EReal)
    (wih : (⟨2, ![1, 4096]⟩ : Shape).Idx → EReal) (whhT : (⟨2, ![1024, 4096]⟩ : Shape).Idx → EReal)
    (bsum : (⟨2, ![1, 4096]⟩ : Shape).Idx → EReal)
    (w1T : (⟨2, ![4, 2048]⟩ : Shape).Idx → EReal) (b1 : (⟨2, ![1, 2048]⟩ : Shape).Idx → EReal)
    (w2T : (⟨2, ![2048, 2048]⟩ : Shape).Idx → EReal) (b2 : (⟨2, ![1, 2048]⟩ : Shape).Idx → EReal)
    (fcw : (⟨2, ![1, 1024]⟩ : Shape).Idx → EReal) (fcb : (⟨2, ![1, 1]⟩ : Shape).Idx → EReal) (r : Fin 32768) : EReal :=
  row (x (ix2 r 0)) (fun a => x (ix2 r (selc a))) (fun k => h (ix2 r k)) (fun k => c (ix2 r k))
    (fun j => wih (ix2 0 j)) (fun j k => whhT (ix2 k j)) (fun j => bsum (ix2 0 j))
    (fun n a => w1T (ix2 a n)) (fun n => b1 (ix2 0 n)) (fun n k => w2T (ix2 k n)) (fun n => b2 (ix2 0 n))
    (fun n => fcw (ix2 0 n)) (fcb (ix2 0 0))

/-- The whole result as one function of the launch's arrays. -/
def GK (x : (⟨2, ![32768, 5]⟩ : Shape).Idx → EReal) (h c : (⟨2, ![32768, 1024]⟩ : Shape).Idx → EReal)
    (wih : (⟨2, ![1, 4096]⟩ : Shape).Idx → EReal) (whhT : (⟨2, ![1024, 4096]⟩ : Shape).Idx → EReal)
    (bsum : (⟨2, ![1, 4096]⟩ : Shape).Idx → EReal)
    (w1T : (⟨2, ![4, 2048]⟩ : Shape).Idx → EReal) (b1 : (⟨2, ![1, 2048]⟩ : Shape).Idx → EReal)
    (w2T : (⟨2, ![2048, 2048]⟩ : Shape).Idx → EReal) (b2 : (⟨2, ![1, 2048]⟩ : Shape).Idx → EReal)
    (fcw : (⟨2, ![1, 1024]⟩ : Shape).Idx → EReal) (fcb : (⟨2, ![1, 1]⟩ : Shape).Idx → EReal) :
    (⟨2, ![32768, 1]⟩ : Shape).Idx → EReal := fun i =>
  GKrow x h c wih whhT bsum w1T b1 w2T b2 fcw fcb (i 0)

/-- The word `0x3F800000` is the number one. -/
theorem ofBits_one : Ideal.ofBits .f32 0x3F800000#32 = 1 := by
  simp [Ideal.ofBits, Ideal.ieee, -EReal.coe_mul]; norm_num

/-- The logistic function spelt as a quotient: `1 / (1 + e^(-x))` with both ones given as the word `0x3F800000`. -/
theorem logistic_spelt (x : EReal) :
    Ideal.div (Ideal.ofBits .f32 0x3F800000#32) (Ideal.ofBits .f32 0x3F800000#32 + Ideal.exp (-x)) = Ideal.logistic x := by
  rw [ofBits_one]; rfl

end Cert.Cell

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.CellBody.lean ====
/-
  The kernel body's arithmetic read at one entry of its output block.

  The body holds a block of 256 batch rows: the rows' inputs, previous hidden and cell states, and the whole of every
  weight (the recurrent and the FiLM output weights transposed, so that a matrix product contracts their first axis).
  Row `p` of what the body computes depends on row `p` of the three row blocks only:
    · the gate pre-activations are a matrix product into a zero accumulator (a plain sum over the contracted axis),
      plus the signal column times the input weights' row, plus the bias row;
    · the four gates are the four 1024-column slices of that; the new hidden state is pointwise in them;
    · the FiLM hidden layer adds the four selector columns times the four rows of the first weights, left to right,
      then the bias row, then the positive part; the FiLM output is a second matrix product plus a bias row, and its
      two 1024-column halves are the scale and the shift;
    · the head multiplies by the head's row and sums each row over its 1024 columns (a lane sum), plus the head's bias.
  Rounding to bf16 before a matrix product is the identity on the extended reals.
-/
import proofs.«118366_j76768245448756_2_alg».proof.Proof.Gen.KernelIdeal.Skeleton
import proofs.«118366_j76768245448756_2_alg».proof.Proof.CellSpec
import proofs.«118366_j76768245448756_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Cell

/-! ## The two matrix products, each entry a sum over the contracted axis -/

/-- The recurrent product's dimensions: [256, 1024] × [1024, 4096]. -/
abbrev D1 : DotDims S256x1024 S1024x4096 S256x4096 := dot_S256x1024_S1024x4096_S256x4096_1_0_0_1_n_n
/-- The FiLM output product's dimensions: [256, 2048] × [2048, 2048]. -/
abbrev D2 : DotDims S256x2048 S2048x2048 S256x2048 := dot_S256x2048_S2048x2048_S256x2048_1_0_0_1_n_n

theorem d1_lhs0 (i : S256x4096.Idx) (q : D1.contr.Idx) : (D1.lhsIdx i q 0).val = (i 0).val := by
  unfold DotDims.lhsIdx
  rw [dif_neg (show ¬(0 : Fin S256x1024.rank) ∈ D1.lhsBatch by decide), dif_pos (show (0 : Fin S256x1024.rank) ∈ D1.lhsNonContracting by decide)]
  rfl
theorem d1_rhs1 (i : S256x4096.Idx) (q : D1.contr.Idx) : (D1.rhsIdx i q 1).val = (i 1).val := by
  unfold DotDims.rhsIdx
  rw [dif_neg (show ¬(1 : Fin S1024x4096.rank) ∈ D1.rhsBatch by decide), dif_pos (show (1 : Fin S1024x4096.rank) ∈ D1.rhsNonContracting by decide)]
  rfl
theorem d2_lhs0 (i : S256x2048.Idx) (q : D2.contr.Idx) : (D2.lhsIdx i q 0).val = (i 0).val := by
  unfold DotDims.lhsIdx
  rw [dif_neg (show ¬(0 : Fin S256x2048.rank) ∈ D2.lhsBatch by decide), dif_pos (show (0 : Fin S256x2048.rank) ∈ D2.lhsNonContracting by decide)]
  rfl
theorem d2_rhs1 (i : S256x2048.Idx) (q : D2.contr.Idx) : (D2.rhsIdx i q 1).val = (i 1).val := by
  unfold DotDims.rhsIdx
  rw [dif_neg (show ¬(1 : Fin S2048x2048.rank) ∈ D2.rhsBatch by decide), dif_pos (show (1 : Fin S2048x2048.rank) ∈ D2.rhsNonContracting by decide)]
  rfl

/-- Entry `(p, j)` of the recurrent product: row `p` of the left operand against column `j` of the right one. -/
theorem mm1_apply (a : FVec Ideal S256x1024 .bf16) (w : FVec Ideal S1024x4096 .bf16) (p : Fin 256) (j : Fin 4096) :
    matmul D1 none a w (constant (F := Ideal) S256x4096 .f32 0x00000000#32) (ix2 p j) = ∑ k : Fin 1024, a (ix2 p k) * w (ix2 k j) := by
  simp only [matmul]
  rw [Ideal.matmul_constant_zero_apply, ← Equiv.sum_comp (contrEquiv1 D1 1024 rfl rfl).symm]
  refine Finset.sum_congr rfl fun k _ => ?_
  have hk := contrEquiv1_symm_val D1 1024 rfl rfl k
  have el : D1.lhsIdx (ix2 p j) ((contrEquiv1 D1 1024 rfl rfl).symm k) = ix2 p k := funext fun c => Fin.ext (by
    match c with
    | ⟨0, _⟩ => exact d1_lhs0 _ _
    | ⟨1, _⟩ => exact (D1.lhsIdx_val_of_single rfl _ _).trans hk)
  have er : D1.rhsIdx (ix2 p j) ((contrEquiv1 D1 1024 rfl rfl).symm k) = ix2 k j := funext fun c => Fin.ext (by
    match c with
    | ⟨0, _⟩ => exact (D1.rhsIdx_val_of_single rfl _ _).trans hk
    | ⟨1, _⟩ => exact d1_rhs1 _ _)
  rw [el, er]

/-- Entry `(p, n)` of the FiLM output product. -/
theorem mm2_apply (a : FVec Ideal S256x2048 .bf16) (w : FVec Ideal S2048x2048 .bf16) (p : Fin 256) (n : Fin 2048) :
    matmul D2 none a w (constant (F := Ideal) S256x2048 .f32 0x00000000#32) (ix2 p n) = ∑ k : Fin 2048, a (ix2 p k) * w (ix2 k n) := by
  simp only [matmul]
  rw [Ideal.matmul_constant_zero_apply, ← Equiv.sum_comp (contrEquiv1 D2 2048 rfl rfl).symm]
  refine Finset.sum_congr rfl fun k _ => ?_
  have hk := contrEquiv1_symm_val D2 2048 rfl rfl k
  have el : D2.lhsIdx (ix2 p n) ((contrEquiv1 D2 2048 rfl rfl).symm k) = ix2 p k := funext fun c => Fin.ext (by
    match c with
    | ⟨0, _⟩ => exact d2_lhs0 _ _
    | ⟨1, _⟩ => exact (D2.lhsIdx_val_of_single rfl _ _).trans hk)
  have er : D2.rhsIdx (ix2 p n) ((contrEquiv1 D2 2048 rfl rfl).symm k) = ix2 k n := funext fun c => Fin.ext (by
    match c with
    | ⟨0, _⟩ => exact (D2.rhsIdx_val_of_single rfl _ _).trans hk
    | ⟨1, _⟩ => exact d2_rhs1 _ _)
  rw [el, er]

/-! ## The lane sum of a row -/

/-- The sum of a [256, 1024] block along its columns, at row `p`: the sum of that row's 1024 entries. -/
theorem rowsum_apply (x : FVec Ideal S256x1024 .f32) (h : S256x1024.Reduces [1] S256) (hφ : FKind.Formats .f32)
    (hacc : (0x00000000#32 : BitVec 32) = FKind.add.neutral .f32 hφ) (p : Fin 256) :
    multiReduction .add [1] S256 x 0x00000000#32 h hφ hacc (ix1 p) = ∑ k : Fin 1024, x (ix2 p k) := by
  refine (Ideal.multiReduction_add_single x 0x00000000#32 h hφ hacc (ix1 p)).trans ?_
  refine Finset.sum_congr rfl fun k _ => congrArg x ?_
  funext c
  apply Fin.ext
  match c with
  | ⟨0, _⟩ => rfl
  | ⟨1, _⟩ => rfl

/-! ## Pointwise operations lane by lane -/

theorem logistic_apply {s : Shape} {φ : FTy} (x : FVec Ideal s φ) (i : s.Idx) : logistic x i = Ideal.logistic (x i) := rfl
theorem tanh_apply {s : Shape} {φ : FTy} (x : FVec Ideal s φ) (i : s.Idx) : tanh x i = Ideal.tanh (x i) := rfl

/-! ## Column and row slices -/

/-- Gate block `q` of the pre-activations is their columns `q · 1024 + n`. -/
theorem gate0_col (X : FVec Ideal S256x4096 .f32) (h : S256x4096.Slices ![0, 0] S256x1024) (p : Fin 256) (n : Fin 1024) :
    extractStridedSlice S256x1024 ![0, 0] X h (ix2 p n) = X (ix2 p (gcol 0 n)) :=
  slice2_axis1_apply 0 X h p n (gcol 0 n) (by show 0 * 1024 + n.val = 0 + n.val; omega)
theorem gate1_col (X : FVec Ideal S256x4096 .f32) (h : S256x4096.Slices ![0, 1024] S256x1024) (p : Fin 256) (n : Fin 1024) :
    extractStridedSlice S256x1024 ![0, 1024] X h (ix2 p n) = X (ix2 p (gcol 1 n)) :=
  slice2_axis1_apply 1024 X h p n (gcol 1 n) (by show 1 * 1024 + n.val = 1024 + n.val; omega)
theorem gate2_col (X : FVec Ideal S256x4096 .f32) (h : S256x4096.Slices ![0, 2048] S256x1024) (p : Fin 256) (n : Fin 1024) :
    extractStridedSlice S256x1024 ![0, 2048] X h (ix2 p n) = X (ix2 p (gcol 2 n)) :=
  slice2_axis1_apply 2048 X h p n (gcol 2 n) (by show 2 * 1024 + n.val = 2048 + n.val; omega)
theorem gate3_col (X : FVec Ideal S256x4096 .f32) (h : S256x4096.Slices ![0, 3072] S256x1024) (p : Fin 256) (n : Fin 1024) :
    extractStridedSlice S256x1024 ![0, 3072] X h (ix2 p n) = X (ix2 p (gcol 3 n)) :=
  slice2_axis1_apply 3072 X h p n (gcol 3 n) (by show 3 * 1024 + n.val = 3072 + n.val; omega)

/-- The scale and the shift are the two column halves of the FiLM output. -/
theorem scale_col (X : FVec Ideal S256x2048 .f32) (h : S256x2048.Slices ![0, 0] S256x1024) (p : Fin 256) (n : Fin 1024) :
    extractStridedSlice S256x1024 ![0, 0] X h (ix2 p n) = X (ix2 p (lo n)) :=
  slice2_axis1_apply 0 X h p n (lo n) (by show n.val = 0 + n.val; omega)
theorem shift_col (X : FVec Ideal S256x2048 .f32) (h : S256x2048.Slices ![0, 1024] S256x1024) (p : Fin 256) (n : Fin 1024) :
    extractStridedSlice S256x1024 ![0, 1024] X h (ix2 p n) = X (ix2 p (hi n)) :=
  slice2_axis1_apply 1024 X h p n (hi n) rfl

/-- Column `a` of the selector block, as a [256, 1] column. -/
theorem sel_col (o : Nat) (a : Fin 4) (ha : a.val = o) (X : FVec Ideal S256x4 .f32) (h : S256x4.Slices ![0, o] S256x1)
    (p : Fin 256) (u : Fin 1) : extractStridedSlice S256x1 ![0, o] X h (ix2 p u) = X (ix2 p a) :=
  slice2_axis1_apply o X h p u a (by have := u.isLt; omega)

/-- Row `a` of the first FiLM weights, as a [1, 2048] row. -/
theorem w1_row (o : Nat) (a : Fin 4) (ha : a.val = o) (X : FVec Ideal S4x2048 .f32) (h : S4x2048.Slices ![o, 0] S1x2048)
    (u : Fin 1) (k : Fin 2048) : extractStridedSlice S1x2048 ![o, 0] X h (ix2 u k) = X (ix2 a k) :=
  slice2_axis0_apply o X h u k a (by have := u.isLt; omega)

/-! ## The payloads -/

/-- The new hidden state at row `p`, column `n` of the block. -/
theorem pay1_apply (v0 v2 : FVec Ideal S256x1024 .f32) (v4 : FVec Ideal S256x1 .f32) (v7 : FVec Ideal S1024x4096 .bf16)
    (v10 v16 : FVec Ideal S1x4096 .f32) (p : Fin 256) (n : Fin 1024) :
    k0_pay1 (F := Ideal) v0 v2 v4 v7 v10 v16 (ix2 p n)
      = Cell.hidden (pre (fun k => v0 (ix2 p k)) (v4 (ix2 p (0 : Fin 1))) (fun j k => v7 (ix2 k j)) (fun j => v10 (ix2 (0 : Fin 1) j))
          (fun j => v16 (ix2 (0 : Fin 1) j))) (fun n => v2 (ix2 p n)) n := by
  unfold k0_pay1 Cell.hidden pre
  simp only [shapeCast_self, mulf_apply, addf_apply, logistic_apply, tanh_apply, truncf_apply, gate0_col, gate1_col, gate2_col, gate3_col,
    mm1_apply, broadcastTo_a1_ab_apply, broadcastTo_1b_ab_apply]

/-- The reshaped first FiLM weights are the block itself. -/
theorem pay2_eq (v33 : FVec Ideal S4x2048 .f32) : k0_pay2 (F := Ideal) v33 = v33 := shapeCast_self _ _

/-- The first selector term at row `p`, unit `k`. -/
theorem pay3_apply (v5 : FVec Ideal S256x4 .f32) (v33 : FVec Ideal S4x2048 .f32) (p : Fin 256) (k : Fin 2048) :
    k0_pay3 (F := Ideal) v5 v33 (ix2 p k) = v5 (ix2 p (0 : Fin 4)) * v33 (ix2 (0 : Fin 4) k) := by
  unfold k0_pay3
  rw [pay2_eq]
  simp only [mulf_apply, broadcastTo_a1_ab_apply, broadcastTo_1b_ab_apply, sel_col 0 (0 : Fin 4) rfl, w1_row 0 (0 : Fin 4) rfl]

/-- The second selector column. -/
theorem pay4_apply (v5 : FVec Ideal S256x4 .f32) (p : Fin 256) (u : Fin 1) : k0_pay4 (F := Ideal) v5 (ix2 p u) = v5 (ix2 p (1 : Fin 4)) := by
  unfold k0_pay4
  exact sel_col 1 (1 : Fin 4) rfl v5 _ p u

/-- The second row of the first FiLM weights. -/
theorem pay5_apply (v33 : FVec Ideal S4x2048 .f32) (u : Fin 1) (k : Fin 2048) : k0_pay5 (F := Ideal) v33 (ix2 u k) = v33 (ix2 (1 : Fin 4) k) := by
  unfold k0_pay5
  rw [pay2_eq]
  exact w1_row 1 (1 : Fin 4) rfl v33 _ u k

/-- The stored value at row `p` of the block: the head over the FiLM-modulated hidden state, where the FiLM hidden layer's
    first two selector terms arrive already formed (`v39`, and `v40` · `v41`). -/
theorem pay6_apply (v5 : FVec Ideal S256x4 .f32) (v32 : FVec Ideal S256x1024 .f32) (v34 : FVec Ideal S4x2048 .f32)
    (v39 : FVec Ideal S256x2048 .f32) (v40 : FVec Ideal S256x1 .f32) (v41 v58 : FVec Ideal S1x2048 .f32)
    (v65 : FVec Ideal S2048x2048 .bf16) (v68 : FVec Ideal S1x2048 .f32) (v76 : FVec Ideal S1x1024 .f32) (v81 : FVec Ideal S1x1 .f32)
    (p : Fin 256) (u : Fin 1) :
    k0_pay6 (F := Ideal) v5 v32 v34 v39 v40 v41 v58 v65 v68 v76 v81 (ix2 p u)
      = head (film2 (fun k => max ((((v39 (ix2 p k) + v40 (ix2 p (0 : Fin 1)) * v41 (ix2 (0 : Fin 1) k))
                    + v5 (ix2 p (2 : Fin 4)) * v34 (ix2 (2 : Fin 4) k)) + v5 (ix2 p (3 : Fin 4)) * v34 (ix2 (3 : Fin 4) k))
                    + v58 (ix2 (0 : Fin 1) k)) (Ideal.ofBits .f32 0x00000000#32))
              (fun n k => v65 (ix2 k n)) (fun n => v68 (ix2 (0 : Fin 1) n)))
          (fun n => v32 (ix2 p n)) (fun n => v76 (ix2 (0 : Fin 1) n)) (v81 (ix2 (0 : Fin 1) (0 : Fin 1))) := by
  obtain rfl : u = 0 := Subsingleton.elim _ _
  unfold k0_pay6 head film2
  rw [addf_apply]
  refine congrArg₂ (· + ·) ?_ ?_
  · refine (shapeCast_a_a1_apply _ _ p 0).trans ?_
    refine (rowsum_apply _ _ _ _ p).trans ?_
    refine Finset.sum_congr rfl fun n _ => ?_
    simp only [shapeCast_self, mulf_apply, addf_apply, maximumf_apply, truncf_apply, broadcast_apply,
      scale_col, shift_col, mm2_apply, broadcastTo_a1_ab_apply, broadcastTo_1b_ab_apply, sel_col 2 (2 : Fin 4) rfl, sel_col 3 (3 : Fin 4) rfl,
      w1_row 2 (2 : Fin 4) rfl, w1_row 3 (3 : Fin 4) rfl]
    rfl
  · simp only [shapeCast_self, broadcastTo_1b_ab_apply]

end Cert.KernelIdeal.Body

end
-- ==== Proof.CellBlocks.lean ====
/-
  From blocks to the array: the kernel's result array after the run is one function of the arrays its launch is handed.

  The grid has 128 points; point `t` holds rows `256 t … 256 t + 255` of the input and of the two states (their block
  index on the row axis is the output's) and the whole of every weight and bias (block index zero on both axes), and
  writes back rows `256 t … 256 t + 255` of the one-column result. Row `p` of what it writes back is the cell's row
  function of row `256 t + p` of the launch's arrays; the 128 blocks cover all 32768 rows.
-/
import proofs.«118366_j76768245448756_2_alg».proof.Proof.Gen.KernelIdeal.Value
import proofs.«118366_j76768245448756_2_alg».proof.Proof.CellBody

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open Cert.Cell

variable (m : (ℓ : Loc nD τ sig) → Buf (Elt Ideal) ℓ) (ρ : Dev nD → PrngReg)

theorem hz : (![0, 0] : Fin 2 → Nat) = fun _ => 0 := funext fun a => by fin_cases a <;> rfl

/-! ## The body's stored block, entry by entry, from the blocks it loads -/

/-- The signal is column 0 of the input block. -/
theorem ld_sig (x0 : Vec Ideal S256x5 .f32) (p : Fin 256) (u : Fin 1) :
    (View.ld x0 r0_1 : Vec Ideal S256x1 .f32) (ix2 p u) = x0 (ix2 p (0 : Fin 5)) := by
  show x0 (r0_1.emb (ix2 p u)) = x0 (ix2 p (0 : Fin 5))
  refine congrArg x0 (funext fun d => Fin.ext ?_)
  match d with
  | ⟨0, _⟩ => show 0 + 1 * p.val = p.val; omega
  | ⟨1, _⟩ => show 0 + 1 * u.val = 0; have := u.isLt; omega

/-- The selector is columns 1 to 4 of the input block. -/
theorem ld_sel (x0 : Vec Ideal S256x5 .f32) (p : Fin 256) (a : Fin 4) :
    (View.ld x0 r0_2 : Vec Ideal S256x4 .f32) (ix2 p a) = x0 (ix2 p (selc a)) := by
  show x0 (r0_2.emb (ix2 p a)) = x0 (ix2 p (selc a))
  refine congrArg x0 (funext fun d => Fin.ext ?_)
  match d with
  | ⟨0, _⟩ => show 0 + 1 * p.val = p.val; omega
  | ⟨1, _⟩ => show 1 + 1 * a.val = 1 + a.val; omega

/-- Row `p` of the block the body stores is the cell's row function of row `p` of the three row blocks and of the weights. -/
theorem out_apply (x0 : FVec Ideal S256x5 .f32) (x1 x2 : FVec Ideal S256x1024 .f32) (x3 : FVec Ideal S1x4096 .f32)
    (x4 : FVec Ideal S1024x4096 .bf16) (x5 : FVec Ideal S1x4096 .f32) (x6 : FVec Ideal S4x2048 .f32) (x7 : FVec Ideal S1x2048 .f32)
    (x8 : FVec Ideal S2048x2048 .bf16) (x9 : FVec Ideal S1x2048 .f32) (x10 : FVec Ideal S1x1024 .f32) (x11 : FVec Ideal S1x1 .f32)
    (p : Fin 256) (u : Fin 1) :
    out0_12 (F := Ideal) x0 x1 x2 x3 x4 x5 x6 x7 x8 x9 x10 x11 (ix2 p u)
      = row (x0 (ix2 p (0 : Fin 5))) (fun a => x0 (ix2 p (selc a))) (fun k => x1 (ix2 p k)) (fun k => x2 (ix2 p k))
          (fun j => x3 (ix2 (0 : Fin 1) j)) (fun j k => x4 (ix2 k j)) (fun j => x5 (ix2 (0 : Fin 1) j))
          (fun n a => x6 (ix2 a n)) (fun n => x7 (ix2 (0 : Fin 1) n)) (fun n k => x8 (ix2 k n)) (fun n => x9 (ix2 (0 : Fin 1) n))
          (fun n => x10 (ix2 (0 : Fin 1) n)) (x11 (ix2 (0 : Fin 1) (0 : Fin 1))) := by
  unfold out0_12
  rw [View.canon_unit_zero hz]
  simp only [View.ld_unit_zero (S := S256x1024) hz, View.ld_unit_zero (S := S1024x4096) hz, View.ld_unit_zero (S := S1x4096) hz,
    View.ld_unit_zero (S := S4x2048) hz, View.ld_unit_zero (S := S1x2048) hz, View.ld_unit_zero (S := S2048x2048) hz,
    View.ld_unit_zero (S := S1x1024) hz, View.ld_unit_zero (S := S1x1) hz]
  refine (Body.pay6_apply _ _ _ _ _ _ _ _ _ _ _ p u).trans ?_
  unfold row film1
  simp only [Body.pay1_apply, Body.pay2_eq, Body.pay3_apply, Body.pay4_apply, Body.pay5_apply]
  rw [ld_sig x0 p 0, ld_sel x0 p 0, ld_sel x0 p 1, ld_sel x0 p 2, ld_sel x0 p 3]

/-! ## The windows' block indices over the grid -/

/-- The three row windows move with the output window along the rows and sit at column block 0; every other window
    sits at block (0, 0) at every point; the output's row block index is below 128 and its column block index is 0. -/
theorem idx_facts : ∀ t : Fin cfg0.N,
    (win0_0.index t (0 : Fin 2) = win0_12.index t (0 : Fin 2) ∧ win0_0.index t (1 : Fin 2) = 0
    ∧ win0_1.index t (0 : Fin 2) = win0_12.index t (0 : Fin 2) ∧ win0_1.index t (1 : Fin 2) = 0
    ∧ win0_2.index t (0 : Fin 2) = win0_12.index t (0 : Fin 2) ∧ win0_2.index t (1 : Fin 2) = 0)
    ∧ (win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0)
    ∧ (win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0)
    ∧ (win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0)
    ∧ win0_12.index t (0 : Fin 2) ≤ 127 ∧ win0_12.index t (1 : Fin 2) = 0 :=
  (by decide +kernel : ∀ t : Fin grid0.N, _)

/-- Every row block of the result is some point's. -/
theorem idx_onto : ∀ q : Fin 128, ∃ t : Fin cfg0.N, win0_12.index t = ![q.val, 0] :=
  (by decide +kernel : ∀ q : Fin 128, ∃ t : Fin grid0.N, win0_12.index t = ![q.val, 0])

/-! ## A window's block, read at an entry, is the launch's array at the entry's place in the array -/

/-- Entry `(p, a)` of the input's block at point `t` is entry `(r, a)` of the input, `r` the row the block's row `p` is. -/
theorem blk0_at (c : Dev nD) (t : Fin cfg0.N) (p : Fin 256) (a : Fin 5) (r : Fin 32768)
    (hr : r.val = win0_12.index t (0 : Fin 2) * 256 + p.val) :
    iblk m c 0 t (ix2 p a) = V m c main_arg0 (ix2 r a) := by
  obtain ⟨⟨f0, f1, -⟩, -⟩ := idx_facts t
  show V m c main_arg0 (((cfg0.win 0).blk t).view.emb (ix2 p a)) = V m c main_arg0 (ix2 r a)
  refine congrArg (V m c main_arg0) (funext fun d => Fin.ext ?_)
  match d with
  | ⟨0, _⟩ => show win0_0.index t (0 : Fin 2) * 256 + 1 * p.val = r.val; omega
  | ⟨1, _⟩ => show win0_0.index t (1 : Fin 2) * 5 + 1 * a.val = a.val; omega

/-- The previous hidden state's block likewise. -/
theorem blk1_at (c : Dev nD) (t : Fin cfg0.N) (p : Fin 256) (k : Fin 1024) (r : Fin 32768)
    (hr : r.val = win0_12.index t (0 : Fin 2) * 256 + p.val) :
    iblk m c 1 t (ix2 p k) = V m c main_v0 (ix2 r k) := by
  obtain ⟨⟨-, -, f0, f1, -⟩, -⟩ := idx_facts t
  show V m c main_v0 (((cfg0.win 1).blk t).view.emb (ix2 p k)) = V m c main_v0 (ix2 r k)
  refine congrArg (V m c main_v0) (funext fun d => Fin.ext ?_)
  match d with
  | ⟨0, _⟩ => show win0_1.index t (0 : Fin 2) * 256 + 1 * p.val = r.val; omega
  | ⟨1, _⟩ => show win0_1.index t (1 : Fin 2) * 1024 + 1 * k.val = k.val; omega

/-- The previous cell state's block likewise. -/
theorem blk2_at (c : Dev nD) (t : Fin cfg0.N) (p : Fin 256) (k : Fin 1024) (r : Fin 32768)
    (hr : r.val = win0_12.index t (0 : Fin 2) * 256 + p.val) :
    iblk m c 2 t (ix2 p k) = V m c main_v1 (ix2 r k) := by
  obtain ⟨⟨-, -, -, -, f0, f1⟩, -⟩ := idx_facts t
  show V m c main_v1 (((cfg0.win 2).blk t).view.emb (ix2 p k)) = V m c main_v1 (ix2 r k)
  refine congrArg (V m c main_v1) (funext fun d => Fin.ext ?_)
  match d with
  | ⟨0, _⟩ => show win0_2.index t (0 : Fin 2) * 256 + 1 * p.val = r.val; omega
  | ⟨1, _⟩ => show win0_2.index t (1 : Fin 2) * 1024 + 1 * k.val = k.val; omega

/-- A weight's or bias's block is the whole array at every point. -/
theorem blk3_at (c : Dev nD) (t : Fin cfg0.N) (u : Fin 1) (j : Fin 4096) : iblk m c 3 t (ix2 u j) = V m c main_v3 (ix2 u j) := by
  obtain ⟨-, ⟨f0, f1, -⟩, -⟩ := idx_facts t
  show V m c main_v3 (((cfg0.win 3).blk t).view.emb (ix2 u j)) = V m c main_v3 (ix2 u j)
  refine congrArg (V m c main_v3) (funext fun d => Fin.ext ?_)
  match d with
  | ⟨0, _⟩ => show win0_3.index t (0 : Fin 2) * 1 + 1 * u.val = u.val; omega
  | ⟨1, _⟩ => show win0_3.index t (1 : Fin 2) * 4096 + 1 * j.val = j.val; omega
theorem blk4_at (c : Dev nD) (t : Fin cfg0.N) (k : Fin 1024) (j : Fin 4096) : iblk m c 4 t (ix2 k j) = V m c main_v7 (ix2 k j) := by
  obtain ⟨-, ⟨-, -, f0, f1, -⟩, -⟩ := idx_facts t
  show V m c main_v7 (((cfg0.win 4).blk t).view.emb (ix2 k j)) = V m c main_v7 (ix2 k j)
  refine congrArg (V m c main_v7) (funext fun d => Fin.ext ?_)
  match d with
  | ⟨0, _⟩ => show win0_4.index t (0 : Fin 2) * 1024 + 1 * k.val = k.val; omega
  | ⟨1, _⟩ => show win0_4.index t (1 : Fin 2) * 4096 + 1 * j.val = j.val; omega
theorem blk5_at (c : Dev nD) (t : Fin cfg0.N) (u : Fin 1) (j : Fin 4096) : iblk m c 5 t (ix2 u j) = V m c main_v5 (ix2 u j) := by
  obtain ⟨-, ⟨-, -, -, -, f0, f1⟩, -⟩ := idx_facts t
  show V m c main_v5 (((cfg0.win 5).blk t).view.emb (ix2 u j)) = V m c main_v5 (ix2 u j)
  refine congrArg (V m c main_v5) (funext fun d => Fin.ext ?_)
  match d with
  | ⟨0, _⟩ => show win0_5.index t (0 : Fin 2) * 1 + 1 * u.val = u.val; omega
  | ⟨1, _⟩ => show win0_5.index t (1 : Fin 2) * 4096 + 1 * j.val = j.val; omega
theorem blk6_at (c : Dev nD) (t : Fin cfg0.N) (a : Fin 4) (n : Fin 2048) : iblk m c 6 t (ix2 a n) = V m c main_v8 (ix2 a n) := by
  obtain ⟨-, -, ⟨f0, f1, -⟩, -⟩ := idx_facts t
  show V m c main_v8 (((cfg0.win 6).blk t).view.emb (ix2 a n)) = V m c main_v8 (ix2 a n)
  refine congrArg (V m c main_v8) (funext fun d => Fin.ext ?_)
  match d with
  | ⟨0, _⟩ => show win0_6.index t (0 : Fin 2) * 4 + 1 * a.val = a.val; omega
  | ⟨1, _⟩ => show win0_6.index t (1 : Fin 2) * 2048 + 1 * n.val = n.val; omega
theorem blk7_at (c : Dev nD) (t : Fin cfg0.N) (u : Fin 1) (n : Fin 2048) : iblk m c 7 t (ix2 u n) = V m c main_v9 (ix2 u n) := by
  obtain ⟨-, -, ⟨-, -, f0, f1, -⟩, -⟩ := idx_facts t
  show V m c main_v9 (((cfg0.win 7).blk t).view.emb (ix2 u n)) = V m c main_v9 (ix2 u n)
  refine congrArg (V m c main_v9) (funext fun d => Fin.ext ?_)
  match d with
  | ⟨0, _⟩ => show win0_7.index t (0 : Fin 2) * 1 + 1 * u.val = u.val; omega
  | ⟨1, _⟩ => show win0_7.index t (1 : Fin 2) * 2048 + 1 * n.val = n.val; omega
theorem blk8_at (c : Dev nD) (t : Fin cfg0.N) (k n : Fin 2048) : iblk m c 8 t (ix2 k n) = V m c main_v11 (ix2 k n) := by
  obtain ⟨-, -, ⟨-, -, -, -, f0, f1⟩, -⟩ := idx_facts t
  show V m c main_v11 (((cfg0.win 8).blk t).view.emb (ix2 k n)) = V m c main_v11 (ix2 k n)
  refine congrArg (V m c main_v11) (funext fun d => Fin.ext ?_)
  match d with
  | ⟨0, _⟩ => show win0_8.index t (0 : Fin 2) * 2048 + 1 * k.val = k.val; omega
  | ⟨1, _⟩ => show win0_8.index t (1 : Fin 2) * 2048 + 1 * n.val = n.val; omega
theorem blk9_at (c : Dev nD) (t : Fin cfg0.N) (u : Fin 1) (n : Fin 2048) : iblk m c 9 t (ix2 u n) = V m c main_v12 (ix2 u n) := by
  obtain ⟨-, -, -, ⟨f0, f1, -⟩, -⟩ := idx_facts t
  show V m c main_v12 (((cfg0.win 9).blk t).view.emb (ix2 u n)) = V m c main_v12 (ix2 u n)
  refine congrArg (V m c main_v12) (funext fun d => Fin.ext ?_)
  match d with
  | ⟨0, _⟩ => show win0_9.index t (0 : Fin 2) * 1 + 1 * u.val = u.val; omega
  | ⟨1, _⟩ => show win0_9.index t (1 : Fin 2) * 2048 + 1 * n.val = n.val; omega
theorem blk10_at (c : Dev nD) (t : Fin cfg0.N) (u : Fin 1) (n : Fin 1024) : iblk m c 10 t (ix2 u n) = V m c main_arg11 (ix2 u n) := by
  obtain ⟨-, -, -, ⟨-, -, f0, f1, -⟩, -⟩ := idx_facts t
  show V m c main_arg11 (((cfg0.win 10).blk t).view.emb (ix2 u n)) = V m c main_arg11 (ix2 u n)
  refine congrArg (V m c main_arg11) (funext fun d => Fin.ext ?_)
  match d with
  | ⟨0, _⟩ => show win0_10.index t (0 : Fin 2) * 1 + 1 * u.val = u.val; omega
  | ⟨1, _⟩ => show win0_10.index t (1 : Fin 2) * 1024 + 1 * n.val = n.val; omega
theorem blk11_at (c : Dev nD) (t : Fin cfg0.N) (u v : Fin 1) : iblk m c 11 t (ix2 u v) = V m c main_v13 (ix2 u v) := by
  obtain ⟨-, -, -, ⟨-, -, -, -, f0, f1⟩, -⟩ := idx_facts t
  show V m c main_v13 (((cfg0.win 11).blk t).view.emb (ix2 u v)) = V m c main_v13 (ix2 u v)
  refine congrArg (V m c main_v13) (funext fun d => Fin.ext ?_)
  match d with
  | ⟨0, _⟩ => show win0_11.index t (0 : Fin 2) * 1 + 1 * u.val = u.val; omega
  | ⟨1, _⟩ => show win0_11.index t (1 : Fin 2) * 1 + 1 * v.val = v.val; omega

/-! ## What a point writes back, the cover, the array -/

/-- The launch's arrays, in the order of the kernel's operands. -/
abbrev launched (c : Dev nD) : S32768x1.Idx → EReal :=
  GK (V m c main_arg0) (V m c main_v0) (V m c main_v1) (V m c main_v3) (V m c main_v7) (V m c main_v5) (V m c main_v8)
    (V m c main_v9) (V m c main_v11) (V m c main_v12) (V m c main_arg11) (V m c main_v13)

/-- What point `t` writes back is block `t` of the cell's function of the launch's arrays. -/
theorem flushed_eq (c : Dev nD) (t : Fin cfg0.N) :
    (dats m 0 c).flushed 12 t = ((cfg0.win 12).blk t).view.read (Elt Ideal) (launched m c) := by
  rw [Value.flushed12]
  obtain ⟨-, -, -, -, g0, g1⟩ := idx_facts t
  funext y
  obtain ⟨p, u, rfl⟩ : ∃ (p : Fin 256) (u : Fin 1), y = ix2 p u := ⟨y 0, y 1, eq_ix2 y⟩
  have hp : p.val < 256 := p.isLt
  have hu : u.val < 1 := u.isLt
  let r : Fin 32768 := ⟨win0_12.index t (0 : Fin 2) * 256 + p.val, by omega⟩
  have hr : r.val = win0_12.index t (0 : Fin 2) * 256 + p.val := rfl
  have hemb : ((cfg0.win 12).blk t).view.emb (ix2 p u) = ix2 r (0 : Fin 1) := funext fun d => Fin.ext (by
    match d with
    | ⟨0, _⟩ => show win0_12.index t (0 : Fin 2) * 256 + 1 * p.val = r.val; omega
    | ⟨1, _⟩ => show win0_12.index t (1 : Fin 2) * 1 + 1 * u.val = 0; omega)
  show out0_12 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix2 p u) = launched m c (((cfg0.win 12).blk t).view.emb (ix2 p u))
  rw [hemb]
  refine (out_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) p u).trans ?_
  have h0 : ∀ a : Fin 5, iblk m c 0 t (ix2 p a) = V m c main_arg0 (ix2 r a) := fun a => blk0_at m c t p a r hr
  have h1 : ∀ k : Fin 1024, iblk m c 1 t (ix2 p k) = V m c main_v0 (ix2 r k) := fun k => blk1_at m c t p k r hr
  have h2 : ∀ k : Fin 1024, iblk m c 2 t (ix2 p k) = V m c main_v1 (ix2 r k) := fun k => blk2_at m c t p k r hr
  simp only [h0, h1, h2, blk3_at, blk4_at, blk5_at, blk6_at, blk7_at, blk8_at, blk9_at, blk10_at, blk11_at]
  rfl

/-- An index of the result is in point `t`'s block iff each coordinate is in the block's range on its axis. -/
theorem mem_blk (t : Fin cfg0.N) (i : S32768x1.Idx) :
    i ∈ ((cfg0.win 12).blk t).view.set ↔ ∀ a : Fin 2, win0_12.index t a * S256x1.size a ≤ (i a).val ∧ (i a).val < win0_12.index t a * S256x1.size a + S256x1.size a := by
  show i ∈ ((View.whole main_v14).slice (win0_12.rect t)).set ↔ _
  rw [View.set_slice_whole, Rect.mem_set_unit]
  exact Iff.rfl

/-- Every row of the result is in some point's block: row `r` in the block of the point whose row block is `r / 256`. -/
theorem cover (i : S32768x1.Idx) : ∃ t : Fin cfg0.N, (cfg0.win 12).flush t = true ∧ i ∈ ((cfg0.win 12).blk t).view.set := by
  have hi0 : (i 0).val < 32768 := (i 0).isLt
  have hi1 : (i 1).val < 1 := (i 1).isLt
  obtain ⟨t, ht⟩ := idx_onto ⟨(i 0).val / 256, by omega⟩
  have q0 : win0_12.index t (0 : Fin 2) = (i 0).val / 256 := congrFun ht 0
  have q1 : win0_12.index t (1 : Fin 2) = 0 := congrFun ht 1
  refine ⟨t, flush0_12 t, ?_⟩
  rw [mem_blk]
  intro a
  match a with
  | ⟨0, _⟩ => show win0_12.index t (0 : Fin 2) * 256 ≤ (i 0).val ∧ (i 0).val < win0_12.index t (0 : Fin 2) * 256 + 256; omega
  | ⟨1, _⟩ => show win0_12.index t (1 : Fin 2) * 1 ≤ (i 1).val ∧ (i 1).val < win0_12.index t (1 : Fin 2) * 1 + 1; omega

/-- The result array after the run is the cell's function of the launch's arrays. -/
theorem final (c : Dev nD) : (dats m 0 c).arrAt 12 cfg0.N = launched m c :=
  (dats m 0 c).arrAt_eq_of_cover 12 (launched m c) (fun t _ => flushed_eq m c t) cover

end Cert.KernelIdeal.Blocks

end
-- ==== Proof.CellLaunch.lean ====
/-
  The arrays the kernel's launch is handed, read at an index, are the argument arrays re-laid.

  Before the launch the program drops the leading unit axis of the two states, turns the input-to-gate weights (one column)
  into one row, adds the two gate biases and turns the sum into a row, transposes the three weight matrices (rounding two
  of them to bf16, the identity on the extended reals), and turns the remaining biases into rows. So the function of the
  launch's arrays that the kernel computes is the function `G` of the argument arrays.
-/
import proofs.«118366_j76768245448756_2_alg».proof.Proof.Gen.KernelIdeal.Frame
import proofs.«118366_j76768245448756_2_alg».proof.Proof.CellSpec
import proofs.«118366_j76768245448756_2_alg».proof.Proof.LibKeepdims
import Idealize.ShloMosaic.Lib.ValueLayout
import Idealize.ShloMosaic.Lib.StableHlo.Run

noncomputable section

namespace Cert.KernelIdeal.Launched

open Cert.KernelIdeal Cert.KernelIdeal.Gen Idealize.ShloMosaic Idealize.ShloMosaic.TcCoe Idealize.SL.Sem Idealize.ShloMosaic.ValueIdx
open Idealize.ShloMosaic.StableHlo Cert.Cell

variable (m : (ℓ : Loc nD τ sig) → Buf (Elt Ideal) ℓ)

/-- The previous hidden state as launched: the argument with its leading unit axis dropped. -/
theorem V_v0 (c : Dev nD) : (V m c main_v0 : S32768x1024.Idx → EReal)
    = shapeCast S32768x1024 (m ((c : Thread nD τ).loc main_arg1)) shapeCasts_S1x32768x1024_S32768x1024 := by
  dsimp only [Gen.V, Gen.hostOps0]; after_results; all_goals rfl

/-- The previous cell state as launched. -/
theorem V_v1 (c : Dev nD) : (V m c main_v1 : S32768x1024.Idx → EReal)
    = shapeCast S32768x1024 (m ((c : Thread nD τ).loc main_arg2)) shapeCasts_S1x32768x1024_S32768x1024 := by
  dsimp only [Gen.V, Gen.hostOps0]; after_results; all_goals rfl

/-- The input-to-gate weights as launched: the one column as one row. -/
theorem V_v3 (c : Dev nD) : (V m c main_v3 : S1x4096.Idx → EReal)
    = shapeCast S1x4096 (shapeCast S4096 (m ((c : Thread nD τ).loc main_arg3)) shapeCasts_S4096x1_S4096) shapeCasts_S4096_S1x4096 := by
  dsimp only [Gen.V, Gen.hostOps0]; after_results; all_goals rfl

/-- The gate bias as launched: the two biases added, as one row. -/
theorem V_v5 (c : Dev nD) : (V m c main_v5 : S1x4096.Idx → EReal)
    = shapeCast S1x4096 (addf (F := Ideal) (s := S4096) (φ := .f32) (m ((c : Thread nD τ).loc main_arg5)) (m ((c : Thread nD τ).loc main_arg6))) shapeCasts_S4096_S1x4096 := by
  dsimp only [Gen.V, Gen.hostOps0]; after_results; all_goals rfl

/-- The recurrent weights as launched: transposed (and rounded to bf16). -/
theorem V_v7 (c : Dev nD) : (V m c main_v7 : S1024x4096.Idx → EReal)
    = truncf (F := Ideal) .bf16 (transpose S1024x4096 [1, 0] (m ((c : Thread nD τ).loc main_arg4)) transposes_S4096x1024_S1024x4096_1_0) bitsLt_bf16_f32 := by
  dsimp only [Gen.V, Gen.hostOps0]; after_results; all_goals rfl

/-- The first FiLM weights as launched: transposed. -/
theorem V_v8 (c : Dev nD) : (V m c main_v8 : S4x2048.Idx → EReal)
    = transpose S4x2048 [1, 0] (m ((c : Thread nD τ).loc main_arg7)) transposes_S2048x4_S4x2048_1_0 := by
  dsimp only [Gen.V, Gen.hostOps0]; after_results; all_goals rfl

/-- The first FiLM bias as launched: one row. -/
theorem V_v9 (c : Dev nD) : (V m c main_v9 : S1x2048.Idx → EReal)
    = shapeCast S1x2048 (m ((c : Thread nD τ).loc main_arg8)) shapeCasts_S2048_S1x2048 := by
  dsimp only [Gen.V, Gen.hostOps0]; after_results; all_goals rfl

/-- The second FiLM weights as launched: transposed (and rounded to bf16). -/
theorem V_v11 (c : Dev nD) : (V m c main_v11 : S2048x2048.Idx → EReal)
    = truncf (F := Ideal) .bf16 (transpose S2048x2048 [1, 0] (m ((c : Thread nD τ).loc main_arg9)) transposes_S2048x2048_S2048x2048_1_0) bitsLt_bf16_f32 := by
  dsimp only [Gen.V, Gen.hostOps0]; after_results; all_goals rfl

/-- The second FiLM bias as launched: one row. -/
theorem V_v12 (c : Dev nD) : (V m c main_v12 : S1x2048.Idx → EReal)
    = shapeCast S1x2048 (m ((c : Thread nD τ).loc main_arg10)) shapeCasts_S2048_S1x2048 := by
  dsimp only [Gen.V, Gen.hostOps0]; after_results; all_goals rfl

/-- The head's bias as launched: a [1, 1] array. -/
theorem V_v13 (c : Dev nD) : (V m c main_v13 : S1x1.Idx → EReal)
    = shapeCast S1x1 (m ((c : Thread nD τ).loc main_arg12)) shapeCasts_S1_S1x1 := by
  dsimp only [Gen.V, Gen.hostOps0]; after_results; all_goals rfl

/-- Row `r` of the cell's function of the re-laid arrays is row `r` of `G` of the arrays themselves: each re-laying read at an
    index is the array at the index re-laid back. -/
theorem relaid_row (a0 : FVec Ideal S32768x5 .f32) (a1 a2 : FVec Ideal S1x32768x1024 .f32) (a3 : FVec Ideal S4096x1 .f32)
    (a4 : FVec Ideal S4096x1024 .f32) (a5 a6 : FVec Ideal S4096 .f32) (a7 : FVec Ideal S2048x4 .f32) (a8 : FVec Ideal S2048 .f32)
    (a9 : FVec Ideal S2048x2048 .f32) (a10 : FVec Ideal S2048 .f32) (a11 : FVec Ideal S1x1024 .f32) (a12 : FVec Ideal S1 .f32)
    (r : Fin 32768) :
    GKrow a0 (shapeCast S32768x1024 a1 shapeCasts_S1x32768x1024_S32768x1024) (shapeCast S32768x1024 a2 shapeCasts_S1x32768x1024_S32768x1024)
        (shapeCast S1x4096 (shapeCast S4096 a3 shapeCasts_S4096x1_S4096) shapeCasts_S4096_S1x4096)
        (truncf (F := Ideal) .bf16 (transpose S1024x4096 [1, 0] a4 transposes_S4096x1024_S1024x4096_1_0) bitsLt_bf16_f32)
        (shapeCast S1x4096 (addf (F := Ideal) a5 a6) shapeCasts_S4096_S1x4096)
        (transpose S4x2048 [1, 0] a7 transposes_S2048x4_S4x2048_1_0) (shapeCast S1x2048 a8 shapeCasts_S2048_S1x2048)
        (truncf (F := Ideal) .bf16 (transpose S2048x2048 [1, 0] a9 transposes_S2048x2048_S2048x2048_1_0) bitsLt_bf16_f32)
        (shapeCast S1x2048 a10 shapeCasts_S2048_S1x2048) a11 (shapeCast S1x1 a12 shapeCasts_S1_S1x1) r
      = Grow a0 a1 a2 a3 a4 a5 a6 a7 a8 a9 a10 a11 a12 r := by
  have t4 : ∀ (j : Fin 4096) (k : Fin 1024),
      transpose S1024x4096 [1, 0] a4 transposes_S4096x1024_S1024x4096_1_0 (ix2 k j) = a4 (ix2 j k) :=
    fun j k => transpose_ix2_apply a4 _ k j
  have t7 : ∀ (n : Fin 2048) (a : Fin 4), transpose S4x2048 [1, 0] a7 transposes_S2048x4_S4x2048_1_0 (ix2 a n) = a7 (ix2 n a) :=
    fun n a => transpose_ix2_apply a7 _ a n
  have t9 : ∀ (n k : Fin 2048), transpose S2048x2048 [1, 0] a9 transposes_S2048x2048_S2048x2048_1_0 (ix2 k n) = a9 (ix2 n k) :=
    fun n k => transpose_ix2_apply a9 _ k n
  unfold GKrow Grow
  simp only [shapeCast_1ab_ab_apply, shapeCast_a_1a_apply, shapeCast_a1_a_apply, t4, t7, t9, truncf_apply, addf_apply]

/-- The kernel's function of the launch's arrays is `G` of the argument arrays. -/
theorem launch_eq (c : Dev nD) :
    GK (V m c main_arg0) (V m c main_v0) (V m c main_v1) (V m c main_v3) (V m c main_v7) (V m c main_v5) (V m c main_v8)
        (V m c main_v9) (V m c main_v11) (V m c main_v12) (V m c main_arg11) (V m c main_v13)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) := by
  rw [V_main_arg0, V_main_arg11, V_v0, V_v1, V_v3, V_v5, V_v7, V_v8, V_v9, V_v11, V_v12, V_v13]
  funext i
  exact relaid_row _ _ _ _ _ _ _ _ _ _ _ _ _ (i 0)

end Cert.KernelIdeal.Launched

end
-- ==== Proof.CellRef.lean ====
/-
  The reference, read one entry at a time, is the cell of CellSpec.lean.

  Row `r` of the reference's result depends on row `r` of the input and of the two states and on every weight as given:
  its gate pre-activations add, in this order, the input term (a product contracted over one entry), the first bias,
  the recurrent product and the second bias — the same number as with the recurrent product first and the two biases
  added together, because addition on the extended reals is commutative and associative; its logistic function is spelt as the quotient
  `1 / (1 + e^(-x))`, which is what the logistic function is; its FiLM hidden layer is a product contracted over the four
  selector entries, a sum of four terms added left to right; the head is a product contracted over the 1024 hidden units.
-/
import proofs.«118366_j76768245448756_2_alg».proof.Proof.Gen.ReferenceIdeal.Read
import proofs.«118366_j76768245448756_2_alg».proof.Proof.CellSpec
import Idealize.ShloMosaic.Lib.ValueLayout

noncomputable section

namespace Cert.ReferenceIdeal.RefCell

open Cert.ReferenceIdeal Cert.ReferenceIdeal.Read Idealize.ShloMosaic Idealize.ShloMosaic.ValueIdx Cert.Cell

variable (x0 : (⟨S32768x5, .f32⟩ : BufTy).Contents (Elt Ideal)) (x1 x2 : (⟨S1x32768x1024, .f32⟩ : BufTy).Contents (Elt Ideal))
  (x3 : (⟨S4096x1, .f32⟩ : BufTy).Contents (Elt Ideal)) (x4 : (⟨S4096x1024, .f32⟩ : BufTy).Contents (Elt Ideal))
  (x5 x6 : (⟨S4096, .f32⟩ : BufTy).Contents (Elt Ideal)) (x7 : (⟨S2048x4, .f32⟩ : BufTy).Contents (Elt Ideal))
  (x8 : (⟨S2048, .f32⟩ : BufTy).Contents (Elt Ideal)) (x9 : (⟨S2048x2048, .f32⟩ : BufTy).Contents (Elt Ideal))
  (x10 : (⟨S2048, .f32⟩ : BufTy).Contents (Elt Ideal)) (x11 : (⟨S1x1024, .f32⟩ : BufTy).Contents (Elt Ideal))
  (x12 : (⟨S1, .f32⟩ : BufTy).Contents (Elt Ideal))

/-- The previous hidden state with its leading unit axis dropped, at row `b`, unit `k`. -/
theorem v2_at (b : Fin 32768) (k : Fin 1024) : val_main_v2 (F := Ideal) x1 (ix2 b k) = x1 (ix3 (0 : Fin 1) b k) := by
  unfold val_main_v2
  exact shapeCast_1ab_ab_apply x1 _ b k

/-- The previous cell state likewise. -/
theorem v3_at (b : Fin 32768) (k : Fin 1024) : val_main_v3 (F := Ideal) x2 (ix2 b k) = x2 (ix3 (0 : Fin 1) b k) := by
  unfold val_main_v3
  exact shapeCast_1ab_ab_apply x2 _ b k

/-- The gate pre-activation of batch row `b`, gate column `j`. -/
theorem gates_ref (b : Fin 32768) (j : Fin 4096) :
    val_main_v14 (F := Ideal) x0 x1 x3 x4 x5 x6 (ix2 b j)
      = pre (fun k => x1 (ix3 (0 : Fin 1) b k)) (x0 (ix2 b (0 : Fin 5))) (fun j k => x4 (ix2 j k)) (fun j => x3 (ix2 j (0 : Fin 1)))
          (fun j => x5 (ix1 j) + x6 (ix1 j)) j := by
  refine Eq.trans ?_ (pre_eq (fun k => x1 (ix3 (0 : Fin 1) b k)) (x0 (ix2 b (0 : Fin 5))) (fun j k => x4 (ix2 j k))
    (fun j => x3 (ix2 j (0 : Fin 1))) (fun j => x5 (ix1 j)) (fun j => x6 (ix1 j)) j)
  have e0 : idx_main_v0 (lidx_main_v5 (ix2 b j) 0) = ix2 b (0 : Fin 5) :=
    funext fun a => Fin.ext (by match a with | ⟨0, _⟩ => rfl | ⟨1, _⟩ => rfl)
  have e3 : idx_main_v4 (ridx_main_v5 (ix2 b j) 0) = ix2 j (0 : Fin 1) :=
    funext fun a => Fin.ext (by match a with | ⟨0, _⟩ => rfl | ⟨1, _⟩ => rfl)
  have e5 : idx_main_v6 (idx_main_v7 (ix2 b j)) = ix1 j :=
    funext fun a => Fin.ext (by match a with | ⟨0, _⟩ => rfl)
  have e6 : idx_main_v12 (idx_main_v13 (ix2 b j)) = ix1 j :=
    funext fun a => Fin.ext (by match a with | ⟨0, _⟩ => rfl)
  have e1 : ∀ k : Fin 1024, lidx_main_v10 (ix2 b j) k = ix2 b k := fun k =>
    funext fun a => Fin.ext (by match a with | ⟨0, _⟩ => rfl | ⟨1, _⟩ => rfl)
  have e4 : ∀ k : Fin 1024, idx_main_v9 (ridx_main_v10 (ix2 b j) k) = ix2 j k := fun k =>
    funext fun a => Fin.ext (by match a with | ⟨0, _⟩ => rfl | ⟨1, _⟩ => rfl)
  simp only [val_main_v14_apply, val_main_v11_apply, val_main_v8_apply, val_main_v5_apply, val_main_v10_apply, val_main_v7_apply,
    val_main_v6_apply, val_main_v13_apply, val_main_v12_apply, val_main_v0_apply, val_main_v4_apply, v2_at,
    val_main_v9_apply, Fin.sum_univ_one, e0, e3, e5, e6, e1, e4]
  rfl

/-- The new hidden state of batch row `b` at unit `n`: the four gates are the four 1024-column blocks of the pre-activations,
    and each quotient `1 / (1 + e^(-x))` is the logistic function. -/
theorem hidden_ref (b : Fin 32768) (n : Fin 1024) :
    val_main_v42 (F := Ideal) x0 x1 x2 x3 x4 x5 x6 (ix2 b n)
      = Cell.hidden (pre (fun k => x1 (ix3 (0 : Fin 1) b k)) (x0 (ix2 b (0 : Fin 5))) (fun j k => x4 (ix2 j k))
          (fun j => x3 (ix2 j (0 : Fin 1))) (fun j => x5 (ix1 j) + x6 (ix1 j))) (fun n => x2 (ix3 (0 : Fin 1) b n)) n := by
  have s0 : idx_main_v15 (ix2 b n) = ix2 b (gcol 0 n) := funext fun a => Fin.ext (by
    match a with | ⟨0, _⟩ => rfl | ⟨1, _⟩ => show n.val = 0 * 1024 + n.val; omega)
  have s1 : idx_main_v16 (ix2 b n) = ix2 b (gcol 1 n) := funext fun a => Fin.ext (by
    match a with | ⟨0, _⟩ => rfl | ⟨1, _⟩ => show 1024 + n.val = 1 * 1024 + n.val; omega)
  have s2 : idx_main_v17 (ix2 b n) = ix2 b (gcol 2 n) := funext fun a => Fin.ext (by
    match a with | ⟨0, _⟩ => rfl | ⟨1, _⟩ => show 2048 + n.val = 2 * 1024 + n.val; omega)
  have s3 : idx_main_v18 (ix2 b n) = ix2 b (gcol 3 n) := funext fun a => Fin.ext (by
    match a with | ⟨0, _⟩ => rfl | ⟨1, _⟩ => show 3072 + n.val = 3 * 1024 + n.val; omega)
  unfold Cell.hidden
  simp only [val_main_v42_apply, val_main_v37_apply, val_main_v36_apply, val_main_cst_4_apply, val_main_v35_apply, val_main_v34_apply,
    val_main_cst_3_apply, val_main_v33_apply, val_main_v32_apply, val_main_v18_apply, val_main_v41_apply, val_main_v40_apply,
    val_main_v38_apply, val_main_v30_apply, val_main_v29_apply, val_main_cst_2_apply, val_main_v28_apply, val_main_v27_apply,
    val_main_cst_1_apply, val_main_v26_apply, val_main_v25_apply, val_main_v16_apply, val_main_v39_apply, val_main_v24_apply,
    val_main_v23_apply, val_main_cst_0_apply, val_main_v22_apply, val_main_v21_apply, val_main_cst_apply, val_main_v20_apply,
    val_main_v19_apply, val_main_v15_apply, val_main_v31_apply, val_main_v17_apply, v3_at, s0, s1, s2, s3, gates_ref,
    Ideal.hostDivf_def, Ideal.addf_def, Ideal.mulf_def, Ideal.hostUnary_exp_def, Ideal.hostNegf_def, Ideal.negf_def,
    Ideal.hostUnary_tanh_def, Ideal.ofBits_def, logistic_spelt]

/-- The FiLM hidden layer of batch row `b` at unit `k`: the product contracted over the four selector entries is the sum of
    the four terms, added left to right. -/
theorem film1_ref (b : Fin 32768) (k : Fin 2048) :
    val_main_v48 (F := Ideal) x0 x7 x8 (ix2 b k)
      = film1 (fun a => x0 (ix2 b (selc a))) (fun k a => x7 (ix2 k a)) (fun k => x8 (ix1 k)) k := by
  have e0 : ∀ a : Fin 4, idx_main_v1 (lidx_main_v44 (ix2 b k) a) = ix2 b (selc a) := fun a =>
    funext fun d => Fin.ext (by match d with | ⟨0, _⟩ => rfl | ⟨1, _⟩ => rfl)
  have e7 : ∀ a : Fin 4, idx_main_v43 (ridx_main_v44 (ix2 b k) a) = ix2 k a := fun a =>
    funext fun d => Fin.ext (by match d with | ⟨0, _⟩ => rfl | ⟨1, _⟩ => rfl)
  have e8 : idx_main_v45 (idx_main_v46 (ix2 b k)) = ix1 k :=
    funext fun d => Fin.ext (by match d with | ⟨0, _⟩ => rfl)
  unfold film1
  simp only [val_main_v48_apply, val_main_v47_apply, val_main_v44_apply, val_main_v1_apply, val_main_v43_apply, val_main_v46_apply,
    val_main_v45_apply, val_main_call0_v0_apply, val_main_call0_cst_apply, Fin.sum_univ_four, e0, e7, e8, Ideal.maximumf_def,
    Ideal.addf_def, Ideal.ofBits_def]

/-- The FiLM output of batch row `b` at column `n`. -/
theorem film2_ref (b : Fin 32768) (n : Fin 2048) :
    val_main_v53 (F := Ideal) x0 x7 x8 x9 x10 (ix2 b n)
      = film2 (film1 (fun a => x0 (ix2 b (selc a))) (fun k a => x7 (ix2 k a)) (fun k => x8 (ix1 k))) (fun n k => x9 (ix2 n k))
          (fun n => x10 (ix1 n)) n := by
  have el : ∀ k : Fin 2048, lidx_main_v50 (ix2 b n) k = ix2 b k := fun k =>
    funext fun d => Fin.ext (by match d with | ⟨0, _⟩ => rfl | ⟨1, _⟩ => rfl)
  have e9 : ∀ k : Fin 2048, idx_main_v49 (ridx_main_v50 (ix2 b n) k) = ix2 n k := fun k =>
    funext fun d => Fin.ext (by match d with | ⟨0, _⟩ => rfl | ⟨1, _⟩ => rfl)
  have e10 : idx_main_v51 (idx_main_v52 (ix2 b n)) = ix1 n :=
    funext fun d => Fin.ext (by match d with | ⟨0, _⟩ => rfl)
  unfold film2
  simp only [val_main_v53_apply, val_main_v50_apply, val_main_v49_apply, val_main_v52_apply, val_main_v51_apply, el, e9, e10,
    film1_ref, Ideal.addf_def]

/-- Row `b` of the reference's result is the cell's row function of row `b` of the input and the states and of the weights. -/
theorem out_ref (b : Fin 32768) (u : Fin 1) :
    val_main_v62 (F := Ideal) x0 x1 x2 x3 x4 x5 x6 x7 x8 x9 x10 x11 x12 (ix2 b u)
      = row (x0 (ix2 b (0 : Fin 5))) (fun a => x0 (ix2 b (selc a))) (fun k => x1 (ix3 (0 : Fin 1) b k)) (fun k => x2 (ix3 (0 : Fin 1) b k))
          (fun j => x3 (ix2 j (0 : Fin 1))) (fun j k => x4 (ix2 j k)) (fun j => x5 (ix1 j) + x6 (ix1 j))
          (fun n a => x7 (ix2 n a)) (fun n => x8 (ix1 n)) (fun n k => x9 (ix2 n k)) (fun n => x10 (ix1 n))
          (fun n => x11 (ix2 (0 : Fin 1) n)) (x12 (ix1 (0 : Fin 1))) := by
  obtain rfl : u = 0 := Subsingleton.elim _ _
  have el : ∀ k : Fin 1024, lidx_main_v59 (ix2 b (0 : Fin 1)) k = ix2 b k := fun k =>
    funext fun d => Fin.ext (by match d with | ⟨0, _⟩ => rfl | ⟨1, _⟩ => rfl)
  have e11 : ∀ k : Fin 1024, idx_main_v58 (ridx_main_v59 (ix2 b (0 : Fin 1)) k) = ix2 (0 : Fin 1) k := fun k =>
    funext fun d => Fin.ext (by match d with | ⟨0, _⟩ => rfl | ⟨1, _⟩ => rfl)
  have e12 : idx_main_v60 (idx_main_v61 (ix2 b (0 : Fin 1))) = ix1 (0 : Fin 1) :=
    funext fun d => Fin.ext (by match d with | ⟨0, _⟩ => rfl)
  have s54 : ∀ k : Fin 1024, idx_main_v54 (ix2 b k) = ix2 b (lo k) := fun k =>
    funext fun d => Fin.ext (by match d with | ⟨0, _⟩ => rfl | ⟨1, _⟩ => rfl)
  have s55 : ∀ k : Fin 1024, idx_main_v55 (ix2 b k) = ix2 b (hi k) := fun k =>
    funext fun d => Fin.ext (by match d with | ⟨0, _⟩ => rfl | ⟨1, _⟩ => rfl)
  unfold row head
  simp only [val_main_v62_apply, val_main_v59_apply, val_main_v57_apply, val_main_v56_apply, val_main_v54_apply, val_main_v55_apply,
    val_main_v58_apply, val_main_v61_apply, val_main_v60_apply, el, e11, e12, s54, s55, film2_ref, hidden_ref, Ideal.addf_def,
    Ideal.mulf_def]

/-- The reference's result array is `G` of the argument arrays. -/
theorem ref_eq : val_main_v62 (F := Ideal) x0 x1 x2 x3 x4 x5 x6 x7 x8 x9 x10 x11 x12 = G x0 x1 x2 x3 x4 x5 x6 x7 x8 x9 x10 x11 x12 := by
  funext i
  obtain ⟨b, u, rfl⟩ : ∃ (b : Fin 32768) (u : Fin 1), i = ix2 b u := ⟨i 0, i 1, eq_ix2 i⟩
  rw [out_ref]
  rfl

end Cert.ReferenceIdeal.RefCell

end
-- ==== Proof.lean ====
/-
  A single step of an LSTM cell, its new hidden state modulated by a FiLM network computed from a selector, read out by a
  linear head: a kernel that holds 256 batch rows at a time against the plain array program, equal on the extended reals.

  Both programs compute, for every batch row, the same number (CellSpec.lean's `row`): the gate pre-activations are the
  recurrent product plus the input term plus the two biases — the kernel adds the biases first and the product first, the
  reference interleaves them, and addition on the extended reals is commutative and associative; the logistic function is
  one operation in the kernel and the quotient `1 / (1 + e^(-x))` in the reference, which is its definition; the FiLM
  hidden layer's contraction over the four selector entries is the kernel's four terms added left to right; the two large
  products are sums over the contracted axis on both sides (rounding an operand to bf16 is the identity here), with the
  kernel's weights transposed before the launch; the head's contraction over the hidden units is the kernel's lane sum.
  No step distributes a product over a sum or cancels, so the inputs' finiteness is never used.

  The pieces: CellBody.lean (the kernel body at one entry of its block), CellBlocks.lean (the 128 blocks are the rows of
  one function of the launch's arrays and cover the result), CellLaunch.lean (the launch's arrays are the arguments
  re-laid), CellRef.lean (the reference entry by entry). The three frames are the programs' runs with the result dropped;
  the kernel's idealization rewrote nothing.
-/
import proofs.«118366_j76768245448756_2_alg».proof.Defs
import proofs.«118366_j76768245448756_2_alg».proof.Proof.Gen.Kernel
import proofs.«118366_j76768245448756_2_alg».proof.Proof.Gen.Kernel.Skeleton
import proofs.«118366_j76768245448756_2_alg».proof.Proof.Gen.Kernel.Launch
import proofs.«118366_j76768245448756_2_alg».proof.Proof.Gen.Kernel.Points
import proofs.«118366_j76768245448756_2_alg».proof.Proof.Gen.Kernel.Frame
import proofs.«118366_j76768245448756_2_alg».proof.Proof.Gen.KernelIdeal
import proofs.«118366_j76768245448756_2_alg».proof.Proof.Gen.KernelIdeal.Skeleton
import proofs.«118366_j76768245448756_2_alg».proof.Proof.Gen.KernelIdeal.Launch
import proofs.«118366_j76768245448756_2_alg».proof.Proof.Gen.KernelIdeal.Points
import proofs.«118366_j76768245448756_2_alg».proof.Proof.Gen.KernelIdeal.Frame
import proofs.«118366_j76768245448756_2_alg».proof.Proof.Gen.ReferenceIdeal
import proofs.«118366_j76768245448756_2_alg».proof.Proof.Gen.Pre_finite_inputs
import proofs.«118366_j76768245448756_2_alg».proof.Proof.Gen.KernelIdeal.Value
import proofs.«118366_j76768245448756_2_alg».proof.Proof.Gen.ReferenceIdeal.Run
import proofs.«118366_j76768245448756_2_alg».proof.Proof.Gen.ReferenceIdeal.Read
import proofs.«118366_j76768245448756_2_alg».proof.Proof.CellBlocks
import proofs.«118366_j76768245448756_2_alg».proof.Proof.CellLaunch
import proofs.«118366_j76768245448756_2_alg».proof.Proof.CellRef
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `G` of the arguments: the kernel's
    by its blocks and its launch's re-laying, the reference's by reading its operations one entry at a time. -/
theorem algebraic : Cert.algebraic_KernelIdeal_ReferenceIdeal := by
  intro m ρ m' ρ' _ hagree
  refine ⟨fun c => Cert.Cell.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans ((Cert.KernelIdeal.Blocks.final m c).trans (Cert.KernelIdeal.Launched.launch_eq m c)), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v62_eq, Cert.ReferenceIdeal.RefCell.ref_eq, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
